-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x64 : Shape := ⟨4, ![4, 64, 64, 64]⟩
abbrev S1x64x64 : Shape := ⟨3, ![1, 64, 64]⟩
abbrev S_ : Shape := ⟨0, ![]⟩

class Facts : Prop where
  bcast_S_S4x64x64x64 : S_.BroadcastsInDim S4x64x64x64 (![] : Fin 0 → Fin S4x64x64x64.rank)
  reducesTo_S4x64x64x64_S_d0_1_2_3 : S4x64x64x64.ReducesTo [0, 1, 2, 3] S_
  h_S_ : 0 < S_.numel
  bcast_S_S1x64x64 : S_.BroadcastsInDim S1x64x64 (![] : Fin 0 → Fin S1x64x64.rank)
  reducesTo_S1x64x64_S_d0_1_2 : S1x64x64.ReducesTo [0, 1, 2] S_

variable [Facts]

def fn {F : FTy → Type} [FloatOps F] (main_arg0 : FVec F S4x64x64x64 .f32) (main_arg1 : FVec F S1x64x64 .f32) (main_arg2 : FVec F S1x64x64 .f32) : IVec S_ 1 :=
  let main_v0 : FVec F S4x64x64x64 .f32 := Host.absf main_arg0
  let main_cst : FVec F S_ .f32 := constant S_ .f32 0x7F800000#32
  let main_v1 : FVec F S4x64x64x64 .f32 := broadcastInDim S4x64x64x64 ![] bcast_S_S4x64x64x64 main_cst
  let main_v2 : IVec S4x64x64x64 1 := cmpf .olt main_v0 main_v1
  let main_c : IVec S_ 1 := constantI S_ 1 1#1
  let main_v3 : IVec S_ 1 := (fun x v => Host.reduce IntOp.andi x v reducesTo_S4x64x64x64_S_d0_1_2_3 h_S_) main_v2 main_c
  let main_v4 : FVec F S1x64x64 .f32 := Host.absf main_arg1
  let main_cst_0 : FVec F S_ .f32 := constant S_ .f32 0x7F800000#32
  let main_v5 : FVec F S1x64x64 .f32 := broadcastInDim S1x64x64 ![] bcast_S_S1x64x64 main_cst_0
  let main_v6 : IVec S1x64x64 1 := cmpf .olt main_v4 main_v5
  let main_c_1 : IVec S_ 1 := constantI S_ 1 1#1
  let main_v7 : IVec S_ 1 := (fun x v => Host.reduce IntOp.andi x v reducesTo_S1x64x64_S_d0_1_2 h_S_) main_v6 main_c_1
  let main_v8 : IVec S_ 1 := andi main_v3 main_v7
  let main_v9 : FVec F S1x64x64 .f32 := Host.absf main_arg2
  let main_cst_2 : FVec F S_ .f32 := constant S_ .f32 0x7F800000#32
  let main_v10 : FVec F S1x64x64 .f32 := broadcastInDim S1x64x64 ![] bcast_S_S1x64x64 main_cst_2
  let main_v11 : IVec S1x64x64 1 := cmpf .olt main_v9 main_v10
  let main_c_3 : IVec S_ 1 := constantI S_ 1 1#1
  let main_v12 : IVec S_ 1 := (fun x v => Host.reduce IntOp.andi x v reducesTo_S1x64x64_S_d0_1_2 h_S_) main_v11 main_c_3
  let main_v13 : IVec S_ 1 := andi main_v8 main_v12
  main_v13
-- ==== Kernel.lean ====
abbrev S4x64x64x64 : Shape := ⟨4, ![4, 64, 64, 64]⟩
abbrev S1x64x64 : Shape := ⟨3, ![1, 64, 64]⟩
abbrev S4x64x4096 : Shape := ⟨3, ![4, 64, 4096]⟩
abbrev S4x4096x64 : Shape := ⟨3, ![4, 4096, 64]⟩
abbrev S1x4096x64 : Shape := ⟨3, ![1, 4096, 64]⟩
abbrev S4096x64 : Shape := ⟨2, ![4096, 64]⟩
abbrev S4096 : Shape := ⟨1, ![4096]⟩
abbrev S4096x1 : Shape := ⟨2, ![4096, 1]⟩
abbrev S1x512x64 : Shape := ⟨3, ![1, 512, 64]⟩
abbrev S512x64 : Shape := ⟨2, ![512, 64]⟩
abbrev S512 : Shape := ⟨1, ![512]⟩
abbrev S512x1 : Shape := ⟨2, ![512, 1]⟩
abbrev S4096x512 : Shape := ⟨2, ![4096, 512]⟩
abbrev S1x512 : Shape := ⟨2, ![1, 512]⟩
abbrev S64x64 : Shape := ⟨2, ![64, 64]⟩

abbrev nBuf : Space → Nat
  | .hbm => 6
  | .vmem => 7
  | .smem => 0
  | _ => 0

abbrev bufTy : (tb : Table) → Fin (tcTables nBuf tb) → BufTy
  | .hbm, ⟨0, _⟩ => ⟨S4x64x64x64, .f32⟩
  | .hbm, ⟨1, _⟩ => ⟨S1x64x64, .f32⟩
  | .hbm, ⟨2, _⟩ => ⟨S1x64x64, .f32⟩
  | .hbm, ⟨3, _⟩ => ⟨S4x64x4096, .f32⟩
  | .hbm, ⟨4, _⟩ => ⟨S4x4096x64, .f32⟩
  | .hbm, ⟨5, _⟩ => ⟨S4x4096x64, .f32⟩
  | .local _ .vmem, ⟨0, _⟩ => ⟨S1x4096x64, .f32⟩
  | .local _ .vmem, ⟨1, _⟩ => ⟨S1x4096x64, .f32⟩
  | .local _ .vmem, ⟨2, _⟩ => ⟨S1x64x64, .f32⟩
  | .local _ .vmem, ⟨3, _⟩ => ⟨S1x64x64, .f32⟩
  | .local _ .vmem, ⟨4, _⟩ => ⟨S1x4096x64, .f32⟩
  | .local _ .vmem, ⟨5, _⟩ => ⟨S1x4096x64, .f32⟩
  | .local _ .vmem, ⟨6, _⟩ => ⟨S4096x64, .f32⟩
  | _, _ => ⟨S4x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v79 : BitVec 32 := Scalar.muli arg6 c512_i32
  v79
def k0_off1 (k0_t1 : Fin k0_t1_loop.trips) : Fin 3 → Nat :=
  let c0_41 : Index := 0#32
  let c0_i32 : BitVec 32 := 0#32
  let c1_i32 : BitVec 32 := 1#32
  let arg6 : BitVec 32 := Scf.iv c0_i32 c1_i32 k0_t1
  let c512_i32 : BitVec 32 := 512#32
  let v79 : BitVec 32 := Scalar.muli arg6 c512_i32
  let v80 : BitVec 32 := v79
  let v81 : Index := Scalar.indexCast v80
  let c0_42 : Index := 0#32
  ![0, v81.toNat, 0]
@[reducible] def k0_t2_loop : Scf.Loop 32 :=
  let c0_i32_7 : BitVec 32 := 0#32
  let c8_i32_8 : BitVec 32 := 8#32
  let v16 : BitVec 32 := Scalar.addi c0_i32_7 c8_i32_8
  let c1_i32_9 : BitVec 32 := 1#32
  ⟨c0_i32_7, v16, c1_i32_9⟩
def k0_mult2 (k0_t2 : Fin k0_t2_loop.trips) : BitVec 32 :=
  let c0_i32_7 : BitVec 32 := 0#32
  let c1_i32_9 : BitVec 32 := 1#32
  let arg6 : BitVec 32 := Scf.iv c0_i32_7 c1_i32_9 k0_t2
  let c512_i32 : BitVec 32 := 512#32
  let v79 : BitVec 32 := Scalar.muli arg6 c512_i32
  v79
def k0_off2 (k0_t2 : Fin k0_t2_loop.trips) : Fin 3 → Nat :=
  let c0_41 : Index := 0#32
  let c0_i32_7 : BitVec 32 := 0#32
  let c1_i32_9 : BitVec 32 := 1#32
  let arg6 : BitVec 32 := Scf.iv c0_i32_7 c1_i32_9 k0_t2
  let c512_i32 : BitVec 32 := 512#32
  let v79 : BitVec 32 := Scalar.muli arg6 c512_i32
  let v80 : BitVec 32 := v79
  let v81 : Index := Scalar.indexCast v80
  let c0_42 : Index := 0#32
  ![0, v81.toNat, 0]
def k0_off3 (k0_t2 : Fin k0_t2_loop.trips) : Fin 2 → Nat :=
  let c0_i32_7 : BitVec 32 := 0#32
  let c1_i32_9 : BitVec 32 := 1#32
  let arg6 : BitVec 32 := Scf.iv c0_i32_7 c1_i32_9 k0_t2
  let c512_i32 : BitVec 32 := 512#32
  let v79 : BitVec 32 := Scalar.muli arg6 c512_i32
  let v80 : BitVec 32 := v79
  let v98 : Index := Scalar.indexCast v80
  let c0_46 : Index := 0#32
  ![v98.toNat, 0]
@[reducible] def k0_t3_loop : Scf.Loop 32 :=
  let c0_i32_24 : BitVec 32 := 0#32
  let c8_i32_25 : BitVec 32 := 8#32
  let v49 : BitVec 32 := Scalar.addi c0_i32_24 c8_i32_25
  let c1_i32_26 : BitVec 32 := 1#32
  ⟨c0_i32_24, v49, c1_i32_26⟩
def k0_mult3 (k0_t3 : Fin k0_t3_loop.trips) : BitVec 32 :=
  let c0_i32_24 : BitVec 32 := 0#32
  let c1_i32_26 : BitVec 32 := 1#32
  let arg6 : BitVec 32 := Scf.iv c0_i32_24 c1_i32_26 k0_t3
  let c512_i32 : BitVec 32 := 512#32
  let v79 : BitVec 32 := Scalar.muli arg6 c512_i32
  v79
def k0_off4 (k0_t3 : Fin k0_t3_loop.trips) : Fin 3 → Nat :=
  let c0_41 : Index := 0#32
  let c0_i32_24 : BitVec 32 := 0#32
  let c1_i32_26 : BitVec 32 := 1#32
  let arg6 : BitVec 32 := Scf.iv c0_i32_24 c1_i32_26 k0_t3
  let c512_i32 : BitVec 32 := 512#32
  let v79 : BitVec 32 := Scalar.muli arg6 c512_i32
  let v80 : BitVec 32 := v79
  let v81 : Index := Scalar.indexCast v80
  let c0_42 : Index := 0#32
  ![0, v81.toNat, 0]
def k0_off5 (k0_t3 : Fin k0_t3_loop.trips) : Fin 2 → Nat :=
  let c0_i32_24 : BitVec 32 := 0#32
  let c1_i32_26 : BitVec 32 := 1#32
  let arg6 : BitVec 32 := Scf.iv c0_i32_24 c1_i32_26 k0_t3
  let c512_i32 : BitVec 32 := 512#32
  let v79 : BitVec 32 := Scalar.muli arg6 c512_i32
  let v80 : BitVec 32 := v79
  let v98 : Index := Scalar.indexCast v80
  let c0_46 : Index := 0#32
  ![v98.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x64x64x64_S4x64x4096 : S4x64x64x64.ShapeCasts S4x64x4096
  transposes_S4x64x4096_S4x4096x64_0_2_1 : S4x64x4096.Transposes [0, 2, 1] S4x4096x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S4096x64_S4096 : S4096x64.Reduces [1] S4096
  shapeCasts_S4096_S4096x1 : S4096.ShapeCasts S4096x1
  h_S1x512x64 : 0 < S1x512x64.numel
  shapeCasts_S1x512x64_S512x64 : S1x512x64.ShapeCasts S512x64
  reduces_S512x64_S512 : S512x64.Reduces [1] S512
  shapeCasts_S512_S512x1 : S512.ShapeCasts S512x1
  transposes_S512x1_p1_0_S1x512 : S512x1.Transposes [1, 0] S1x512
  broadcasts_S4096x1_S4096x512 : S4096x1.Broadcasts S4096x512
  broadcasts_S1x512_S4096x512 : S1x512.Broadcasts S4096x512
  natLt_1_32 : 1 < 32
  reduces_S4096x512_S4096 : S4096x512.Reduces [1] S4096
  broadcasts_S4096x1_S4096x64 : S4096x1.Broadcasts S4096x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  h_S512x64 : 0 < S512x64.numel
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S4096x64_S1x4096x64 : S4096x64.ShapeCasts S1x4096x64
  dot_S4096x64_S512x64_S4096x512_1_1_0_0_n_n_wf : DotDims.WF S4096x64 S512x64 S4096x512 [1] [1] [0] [0] [] []
  dot_S4096x512_S512x64_S4096x64_1_0_0_1_n_n_wf : DotDims.WF S4096x512 S512x64 S4096x64 [1] [0] [0] [1] [] []
  dot_S4096x64_S64x64_S4096x64_1_0_0_1_n_n_wf : DotDims.WF S4096x64 S64x64 S4096x64 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x512x64.size a ≤ S1x4096x64.size a
  k0_t2_ok : k0_t2_loop.OK
  k0_mult2_dvd : ∀ k0_t2 : Fin k0_t2_loop.trips, 512 ∣ (k0_mult2 k0_t2).toNat
  k0_off2_inb : ∀ k0_t2 : Fin k0_t2_loop.trips, ∀ a, (k0_off2 k0_t2) a + S1x512x64.size a ≤ S1x4096x64.size a
  k0_off3_inb : ∀ k0_t2 : Fin k0_t2_loop.trips, ∀ a, (k0_off3 k0_t2) a + S512x64.size a ≤ S4096x64.size a
  k0_t3_ok : k0_t3_loop.OK
  k0_mult3_dvd : ∀ k0_t3 : Fin k0_t3_loop.trips, 512 ∣ (k0_mult3 k0_t3).toNat
  k0_off4_inb : ∀ k0_t3 : Fin k0_t3_loop.trips, ∀ a, (k0_off4 k0_t3) a + S1x512x64.size a ≤ S1x4096x64.size a
  k0_off5_inb : ∀ k0_t3 : Fin k0_t3_loop.trips, ∀ a, (k0_off5 k0_t3) a + S512x64.size a ≤ S4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S4x4096x64.size a
  hwx0_0 : ∀ i : grid0.Coords, EltTy.bits .f32 = 32 ∨ (Rect.block (s := S4x4096x64) S1x4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S1x64x64.size a
  hwx0_1 : ∀ i : grid0.Coords, EltTy.bits .f32 = 32 ∨ (Rect.block (s := S1x64x64) S1x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S1x64x64.size a
  hwx0_2 : ∀ i : grid0.Coords, EltTy.bits .f32 = 32 ∨ (Rect.block (s := S1x64x64) S1x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x64.size a ≤ S4x4096x64.size a
  hwx0_3 : ∀ i : grid0.Coords, EltTy.bits .f32 = 32 ∨ (Rect.block (s := S4x4096x64) S1x4096x64.size (cc0_transform_3 i) (hinb0_3 i)).WholeWords (EltTy.packing .f32)

variable [Facts₀]

def dot_S4096x64_S512x64_S4096x512_1_1_0_0_n_n : DotDims S4096x64 S512x64 S4096x512 where
  lhsContracting := [1]
  rhsContracting := [1]
  lhsNonContracting := [0]
  rhsNonContracting := [0]
  lhsBatch := []
  rhsBatch := []
  wf := dot_S4096x64_S512x64_S4096x512_1_1_0_0_n_n_wf
def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v1) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x64x64x64 : Shape := ⟨4, ![4, 64, 64, 64]⟩
abbrev S1x64x64 : Shape := ⟨3, ![1, 64, 64]⟩
abbrev S4x64x4096 : Shape := ⟨3, ![4, 64, 4096]⟩
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩
abbrev S4x1x4096 : Shape := ⟨3, ![4, 1, 4096]⟩
abbrev S64x64 : Shape := ⟨2, ![64, 64]⟩

abbrev nBuf : Space → Nat
  | .hbm => 90
  | .vmem => 0
  | .smem => 0
  | _ => 0

abbrev bufTy : (tb : Table) → Fin (tcTables nBuf tb) → BufTy
  | .hbm, ⟨0, _⟩ => ⟨S4x64x64x64, .f32⟩
  | .hbm, ⟨1, _⟩ => ⟨S1x64x64, .f32⟩
  | .hbm, ⟨2, _⟩ => ⟨S1x64x64, .f32⟩
  | .hbm, ⟨3, _⟩ => ⟨S4x64x4096, .f32⟩
  | .hbm, ⟨4, _⟩ => ⟨S4x4096x64, .f32⟩
  | .hbm, ⟨5, _⟩ => ⟨S4x4096x64, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S4x4096x1, .f32⟩
  | .hbm, ⟨10, _⟩ => ⟨S4x4096x4096, .f32⟩
  | .hbm, ⟨11, _⟩ => ⟨S4x1x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096x4096, .f32⟩
  | .hbm, ⟨18, _⟩ => ⟨S4x4096x4096, .i1⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S4x4096x1, .f32⟩
  | .hbm, ⟨27, _⟩ => ⟨S4x4096x4096, .f32⟩
  | .hbm, ⟨28, _⟩ => ⟨S4x4096x4096, .f32⟩
  | .hbm, ⟨29, _⟩ => ⟨S4x1x4096, .f32⟩
  | .hbm, ⟨30, _⟩ => ⟨S4x4096x4096, .f32⟩
  | .hbm, ⟨31, _⟩ => ⟨S4x4096x4096, .f32⟩
  | .hbm, ⟨32, _⟩ => ⟨S4x4096x64, .f32⟩
  | .hbm, ⟨33, _⟩ => ⟨S64x64, .f32⟩
  | .hbm, ⟨34, _⟩ => ⟨S4x4096x64, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x64, .f32⟩
  | .hbm, ⟨42, _⟩ => ⟨S4x4096x64, .f32⟩
  | .hbm, ⟨43, _⟩ => ⟨S4x4096x64, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x64, .f32⟩
  | .hbm, ⟨51, _⟩ => ⟨S4x4096x64, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x4096x1, .f32⟩
  | .hbm, ⟨56, _⟩ => ⟨S4x4096x64, .f32⟩
  | .hbm, ⟨57, _⟩ => ⟨S4x4096x64, .f32⟩
  | .hbm, ⟨58, _⟩ => ⟨S_, .f32⟩
  | .hbm, ⟨59, _⟩ => ⟨S4x4096x64, .f32⟩
  | .hbm, ⟨60, _⟩ => ⟨S4x4096x64, .f32⟩
  | .hbm, ⟨61, _⟩ => ⟨S4x4096x64, .f32⟩
  | .hbm, ⟨62, _⟩ => ⟨S64x64, .f32⟩
  | .hbm, ⟨63, _⟩ => ⟨S4x4096x64, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S4x4096x64, .f32⟩
  | .hbm, ⟨71, _⟩ => ⟨S4x4096x64, .f32⟩
  | .hbm, ⟨72, _⟩ => ⟨S4x4096x64, .f32⟩
  | .hbm, ⟨73, _⟩ => ⟨S_, .f32⟩
  | .hbm, ⟨74, _⟩ => ⟨S4x4096, .f32⟩
  | .hbm, ⟨75, _⟩ => ⟨S4x4096x1, .f32⟩
  | .hbm, ⟨76, _⟩ => ⟨S_, .f32⟩
  | .hbm, ⟨77, _⟩ => ⟨S4x4096x1, .f32⟩
  | .hbm, ⟨78, _⟩ => ⟨S4x4096x1, .f32⟩
  | .hbm, ⟨79, _⟩ => ⟨S4x4096x64, .f32⟩
  | .hbm, ⟨80, _⟩ => ⟨S4x4096x64, .f32⟩
  | .hbm, ⟨81, _⟩ => ⟨S_, .f32⟩
  | .hbm, ⟨82, _⟩ => ⟨S4x4096x1, .f32⟩
  | .hbm, ⟨83, _⟩ => ⟨S4x4096x1, .f32⟩
  | .hbm, ⟨84, _⟩ => ⟨S4x4096x1, .f32⟩
  | .hbm, ⟨85, _⟩ => ⟨S4x4096x64, .f32⟩
  | .hbm, ⟨86, _⟩ => ⟨S4x4096x64, .f32⟩
  | .hbm, ⟨87, _⟩ => ⟨S_, .f32⟩
  | .hbm, ⟨88, _⟩ => ⟨S4x4096x64, .f32⟩
  | .hbm, ⟨89, _⟩ => ⟨S4x4096x64, .f32⟩
  | _, _ => ⟨S4x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_call0_cst : Ref sig .tc := ⟨.hbm, 58, rfl⟩
abbrev main_call0_v0 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_12 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_call1_cst : Ref sig .tc := ⟨.hbm, 87, rfl⟩
abbrev main_call1_v0 : Ref sig .tc := ⟨.hbm, 88, rfl⟩
abbrev main_v68 : Ref sig .tc := ⟨.hbm, 89, rfl⟩

abbrev nD : Nat := 1
abbrev τ : Topo := Topo.v7x

variable {F : FTy → Type} [FloatOps F]

class Facts₀ : Prop where
  shapeCasts_S4x64x64x64_S4x64x4096 : S4x64x64x64.ShapeCasts S4x64x4096
  transposes_S4x64x4096_S4x4096x64_0_2_1 : S4x64x4096.Transposes [0, 2, 1] S4x4096x64
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  transposes_S4x4096x1_S4x1x4096_0_2_1 : S4x4096x1.Transposes [0, 2, 1] S4x1x4096
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  bcast_S_S4x4096 : S_.BroadcastsInDim S4x4096 (![] : Fin 0 → Fin S4x4096.rank)
  bcast_S4x4096_S4x1x4096_0_2 : S4x4096.BroadcastsInDim S4x1x4096 (![0, 2] : Fin 2 → Fin S4x1x4096.rank)
  shapeCasts_S1x64x64_S64x64 : S1x64x64.ShapeCasts S64x64
  bcast_S_S4x4096x1 : S_.BroadcastsInDim S4x4096x1 (![] : Fin 0 → Fin S4x4096x1.rank)
  bcast_S4x4096x1_S4x4096x64_0_1_2 : S4x4096x1.BroadcastsInDim S4x4096x64 (![0, 1, 2] : Fin 3 → Fin S4x4096x64.rank)
  bcast_S_S4x4096x64 : S_.BroadcastsInDim S4x4096x64 (![] : Fin 0 → Fin S4x4096x64.rank)
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]
  dot_S4x4096x64_S64x64_S4x4096x64_2_0_01_1_n_n_wf : DotDims.WF S4x4096x64 S64x64 S4x4096x64 [2] [0] [0, 1] [1] [] []

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf
def dot_S4x4096x64_S64x64_S4x4096x64_2_0_01_1_n_n : DotDims S4x4096x64 S64x64 S4x4096x64 where
  lhsContracting := [2]
  rhsContracting := [0]
  lhsNonContracting := [0, 1]
  rhsNonContracting := [1]
  lhsBatch := []
  rhsBatch := []
  wf := dot_S4x4096x64_S64x64_S4x4096x64_2_0_01_1_n_n_wf

class Facts : Prop extends Facts₀ where

variable [Facts]
-- ==== Proof.KernelTerm.lean ====
/-
  What one grid point's body leaves in its output block, as one closed term of the three blocks it was given.

  The body makes three sweeps over the eight tiles of 512 rows: the degree sweep, and one diffusion sweep per layer.
  Each sweep carries an accumulator; trip `k` adds to it a term computed from the `k`-th tile of rows of the feature
  block and, in the diffusion sweeps, from the `k`-th tile of the scaled features parked in the scratch buffer. Here the
  three carried values are written as plain recursions over the trip number (`degAcc`, `lapAcc1`, `lapAcc2`), and the
  output block as the last payload applied to them (`bodyOut`): no memory, no views — only the blocks `x0` (features),
  `x1`, `x2` (the two weight matrices).
-/
import proofs.«162762_j24618752540869_2_alg».proof.Proof.Gen.KernelIdeal.Frame
import Idealize.ShloMosaic.Lib.Pipeline.Value
import Idealize.ShloMosaic.Lib.Pipeline.FrameBody

set_option maxRecDepth 65536

noncomputable section

namespace Cert.KernelIdeal.Term

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The three carried values as recursions over the trip number -/

/-- Rows `512 k … 512 k + 511` of the feature block: what trip `k` of the degree sweep loads. -/
abbrev rows1 (x0 : Vec F S1x4096x64 .f32) (k : Fin k0_t1_loop.trips) : Vec F S1x512x64 .f32 :=
  View.ld x0 (Rect.unit (s := S1x4096x64) (k0_off1 k) S1x512x64.size (k0_off1_inb k))
abbrev rows2 (x0 : Vec F S1x4096x64 .f32) (k : Fin k0_t2_loop.trips) : Vec F S1x512x64 .f32 :=
  View.ld x0 (Rect.unit (s := S1x4096x64) (k0_off2 k) S1x512x64.size (k0_off2_inb k))
abbrev rows3 (x0 : Vec F S1x4096x64 .f32) (k : Fin k0_t3_loop.trips) : Vec F S1x512x64 .f32 :=
  View.ld x0 (Rect.unit (s := S1x4096x64) (k0_off4 k) S1x512x64.size (k0_off4_inb k))
/-- The same rows of the scratch buffer's contents `S`. -/
abbrev srows2 (S : Vec F S4096x64 .f32) (k : Fin k0_t2_loop.trips) : Vec F S512x64 .f32 :=
  View.ld S (Rect.unit (s := S4096x64) (k0_off3 k) S512x64.size (k0_off3_inb k))
abbrev srows3 (S : Vec F S4096x64 .f32) (k : Fin k0_t3_loop.trips) : Vec F S512x64 .f32 :=
  View.ld S (Rect.unit (s := S4096x64) (k0_off5 k) S512x64.size (k0_off5_inb k))

/-- The degree accumulator before trip `k`. -/
def degAcc (v0 x0 : Vec F S1x4096x64 .f32) (init : FVec F S4096x1 .f32) : ℕ → FVec F S4096x1 .f32
  | 0 => init
  | k + 1 => if h : k < k0_t1_loop.trips then k0_pay5 v0 (degAcc v0 x0 init k) (rows1 x0 ⟨k, h⟩) else degAcc v0 x0 init k

/-- The first layer's diffusion accumulator before trip `k`, the scratch buffer holding `S`. -/
def lapAcc1 (v0 x0 : Vec F S1x4096x64 .f32) (S : Vec F S4096x64 .f32) (init : FVec F S4096x64 .f32) : ℕ → FVec F S4096x64 .f32
  | 0 => init
  | k + 1 => if h : k < k0_t2_loop.trips then k0_pay9 v0 (lapAcc1 v0 x0 S init k) (rows2 x0 ⟨k, h⟩) (srows2 S ⟨k, h⟩) else lapAcc1 v0 x0 S init k

/-- The second layer's diffusion accumulator before trip `k`. -/
def lapAcc2 (v1 : FVec F S4096x64 .f32) (v5 : FVec F S4096x1 .f32) (x0 : Vec F S1x4096x64 .f32) (S : Vec F S4096x64 .f32)
    (init : FVec F S4096x64 .f32) : ℕ → FVec F S4096x64 .f32
  | 0 => init
  | k + 1 => if h : k < k0_t3_loop.trips then k0_pay15 v1 v5 (lapAcc2 v1 v5 x0 S init k) (rows3 x0 ⟨k, h⟩) (srows3 S ⟨k, h⟩) else lapAcc2 v1 v5 x0 S init k

section trips

variable (𝒱 : Variants) (c : Dev nD) (bd : Option 𝒱.V) (i : grid0.Coords) (arg1 : Memref sig .tc .vmem S1x4096x64 .f32) (harg1 : arg1.IsWhole) (arg2 : Memref sig .tc .vmem S1x64x64 .f32) (harg2 : arg2.IsWhole) (arg3 : Memref sig .tc .vmem S1x64x64 .f32) (harg3 : arg3.IsWhole) (arg4 : Memref sig .tc .vmem S1x4096x64 .f32) (harg4 : arg4.IsWhole) (arg5 : Memref sig .tc .vmem S4096x64 .f32) (harg5 : arg5.IsWhole)

/-- One trip of the degree sweep yields its payload of the carried value and of the tile it loads. -/
theorem trip1 (v0 : Vec F S1x4096x64 .f32) (X_arg1 : BufTy.Contents (Elt F) arg1.view.ty) (k : Fin k0_t1_loop.trips) (acc : FVec F S4096x1 .f32) :
    tripR_k0_t1 (F := F) 𝒱 c bd i arg1 harg1 arg2 harg2 arg3 harg3 arg4 harg4 arg5 harg5 v0 X_arg1 k acc
      = k0_pay5 v0 acc (View.readAt (Elt F) arg1.view (Rect.unit (s := S1x4096x64) (k0_off1 k) S1x512x64.size (k0_off1_inb k)).toLoadRect X_arg1) := by
  unfold tripR_k0_t1 trip_k0_t1
  rfl

theorem trip2 (v0 : Vec F S1x4096x64 .f32) (X_arg1 : BufTy.Contents (Elt F) arg1.view.ty) (X_arg5 : BufTy.Contents (Elt F) arg5.view.ty) (k : Fin k0_t2_loop.trips) (acc : FVec F S4096x64 .f32) :
    tripR_k0_t2 (F := F) 𝒱 c bd i arg1 harg1 arg2 harg2 arg3 harg3 arg4 harg4 arg5 harg5 v0 X_arg1 X_arg5 k acc
      = k0_pay9 v0 acc (View.readAt (Elt F) arg1.view (Rect.unit (s := S1x4096x64) (k0_off2 k) S1x512x64.size (k0_off2_inb k)).toLoadRect X_arg1)
          (View.readAt (Elt F) arg5.view (Rect.unit (s := S4096x64) (k0_off3 k) S512x64.size (k0_off3_inb k)).toLoadRect X_arg5) := by
  unfold tripR_k0_t2 trip_k0_t2
  rfl

theorem trip3 (v1 : FVec F S4096x64 .f32) (v5 : FVec F S4096x1 .f32) (v9 : FVec F S4096x1 .f32) (v22 : FVec F S4096x64 .f32) (v26 : FVec F S4096x1 .f32) (v33 : FVec F S4096x1 .f32)
    (X_arg1 : BufTy.Contents (Elt F) arg1.view.ty) (X_arg5 : BufTy.Contents (Elt F) arg5.view.ty) (k : Fin k0_t3_loop.trips) (acc : FVec F S4096x64 .f32) :
    tripR_k0_t3 (F := F) 𝒱 c bd i arg1 harg1 arg2 harg2 arg3 harg3 arg4 harg4 arg5 harg5 v1 v5 v9 v22 v26 v33 X_arg1 X_arg5 k acc
      = k0_pay15 v1 v5 acc (View.readAt (Elt F) arg1.view (Rect.unit (s := S1x4096x64) (k0_off4 k) S1x512x64.size (k0_off4_inb k)).toLoadRect X_arg1)
          (View.readAt (Elt F) arg5.view (Rect.unit (s := S4096x64) (k0_off5 k) S512x64.size (k0_off5_inb k)).toLoadRect X_arg5) := by
  unfold tripR_k0_t3 trip_k0_t3
  rfl

/-- The run's carried value of the degree sweep is the recursion, when the feature buffer reads `x0`. -/
theorem st1_eq (v0 x0 : Vec F S1x4096x64 .f32) (X_arg1 : BufTy.Contents (Elt F) arg1.view.ty) (hX : arg1.view.read (Elt F) X_arg1 = x0)
    (init : FVec F S4096x1 .f32) (k : ℕ) :
    st_k0_t1 (F := F) 𝒱 c bd i arg1 harg1 arg2 harg2 arg3 harg3 arg4 harg4 arg5 harg5 v0 X_arg1 init k = degAcc v0 x0 init k := by
  induction k with
  | zero => rfl
  | succ k ih =>
    rw [st_k0_t1.eq_2, degAcc.eq_2]
    unfold st_k0_t1Step
    by_cases h : k < k0_t1_loop.trips
    · rw [dif_pos h, dif_pos h, trip1, ih, View.readAt_eq_ld, hX]
    · rw [dif_neg h, dif_neg h, ih]

theorem st2_eq (v0 x0 : Vec F S1x4096x64 .f32) (S : Vec F S4096x64 .f32) (X_arg1 : BufTy.Contents (Elt F) arg1.view.ty) (X_arg5 : BufTy.Contents (Elt F) arg5.view.ty)
    (hX : arg1.view.read (Elt F) X_arg1 = x0) (hS : arg5.view.read (Elt F) X_arg5 = S) (init : FVec F S4096x64 .f32) (k : ℕ) :
    st_k0_t2 (F := F) 𝒱 c bd i arg1 harg1 arg2 harg2 arg3 harg3 arg4 harg4 arg5 harg5 v0 X_arg1 X_arg5 init k = lapAcc1 v0 x0 S init k := by
  induction k with
  | zero => rfl
  | succ k ih =>
    rw [st_k0_t2.eq_2, lapAcc1.eq_2]
    unfold st_k0_t2Step
    by_cases h : k < k0_t2_loop.trips
    · rw [dif_pos h, dif_pos h, trip2, ih, View.readAt_eq_ld, View.readAt_eq_ld, hX, hS]
    · rw [dif_neg h, dif_neg h, ih]

theorem st3_eq (v1 : FVec F S4096x64 .f32) (v5 : FVec F S4096x1 .f32) (v9 : FVec F S4096x1 .f32) (v22 : FVec F S4096x64 .f32) (v26 : FVec F S4096x1 .f32) (v33 : FVec F S4096x1 .f32)
    (x0 : Vec F S1x4096x64 .f32) (S : Vec F S4096x64 .f32) (X_arg1 : BufTy.Contents (Elt F) arg1.view.ty) (X_arg5 : BufTy.Contents (Elt F) arg5.view.ty)
    (hX : arg1.view.read (Elt F) X_arg1 = x0) (hS : arg5.view.read (Elt F) X_arg5 = S) (init : FVec F S4096x64 .f32) (k : ℕ) :
    st_k0_t3 (F := F) 𝒱 c bd i arg1 harg1 arg2 harg2 arg3 harg3 arg4 harg4 arg5 harg5 v1 v5 v9 v22 v26 v33 X_arg1 X_arg5 init k = lapAcc2 v1 v5 x0 S init k := by
  induction k with
  | zero => rfl
  | succ k ih =>
    rw [st_k0_t3.eq_2, lapAcc2.eq_2]
    unfold st_k0_t3Step
    by_cases h : k < k0_t3_loop.trips
    · rw [dif_pos h, dif_pos h, trip3, ih, View.readAt_eq_ld, View.readAt_eq_ld, hX, hS]
    · rw [dif_neg h, dif_neg h, ih]

end trips

/-! ## The output block -/

/-- The degrees: the degree sweep's result from a zero start. -/
def degs (x0 : Vec F S1x4096x64 .f32) : FVec F S4096x1 .f32 := degAcc x0 x0 k0_pay4 k0_t1_loop.trips

/-- The first layer's pre-activation `h = (D^{-1/2} A D^{-1/2} x) W0`, from the degrees and the first diffusion sweep. -/
def hidden1 (x0 : Vec F S1x4096x64 .f32) (x1 : Vec F S1x64x64 .f32) : FVec F S4096x64 .f32 :=
  k0_pay10 (degs x0) (lapAcc1 x0 x0 (k0_pay7 x0 (degs x0)) k0_pay8 k0_t2_loop.trips) x1

/-- What the scratch buffer holds during the second sweep: the first layer's output scaled by `D^{-1/2}`. -/
def scaled2 (x0 : Vec F S1x4096x64 .f32) (x1 : Vec F S1x64x64 .f32) : FVec F S4096x64 .f32 :=
  k0_pay13 (k0_pay6 (degs x0)) (hidden1 x0 x1)
    (k0_pay11 (degs x0) (lapAcc1 x0 x0 (k0_pay7 x0 (degs x0)) k0_pay8 k0_t2_loop.trips) x1)
    (k0_pay12 (degs x0) (lapAcc1 x0 x0 (k0_pay7 x0 (degs x0)) k0_pay8 k0_t2_loop.trips) x1)

/-- The output block of one grid point, from its three input blocks. -/
def bodyOut (x0 : Vec F S1x4096x64 .f32) (x1 x2 : Vec F S1x64x64 .f32) : Vec F S1x4096x64 .f32 :=
  k0_pay1 (k0_pay16 (k0_pay6 (degs x0))
      (lapAcc2 (k0_pay2 x0) (k0_pay3 x0) x0 (scaled2 x0 x1) k0_pay14 k0_t3_loop.trips) x2)
    (FloatOps.ofBits .f32 0#32)

theorem hz2 : (![0, 0] : Fin 2 → Nat) = fun _ => 0 := funext fun a => by fin_cases a <;> rfl
theorem hz3 : (![0, 0, 0] : Fin 3 → Nat) = fun _ => 0 := funext fun a => by fin_cases a <;> rfl

/-- What the run finds in the output's staging buffer is `bodyOut` of the input blocks. -/
theorem out_eq (c : Dev nD) (i : grid0.Coords) (arg1 : Memref sig .tc .vmem S1x4096x64 .f32) (harg1 : arg1.IsWhole) (arg2 : Memref sig .tc .vmem S1x64x64 .f32) (harg2 : arg2.IsWhole) (arg3 : Memref sig .tc .vmem S1x64x64 .f32) (harg3 : arg3.IsWhole) (arg4 : Memref sig .tc .vmem S1x4096x64 .f32) (harg4 : arg4.IsWhole) (arg5 : Memref sig .tc .vmem S4096x64 .f32) (harg5 : arg5.IsWhole)
    (x0 : Vec F S1x4096x64 .f32) (x1 : Vec F S1x64x64 .f32) (x2 : Vec F S1x64x64 .f32) :
    out0_A_3 c i arg1 harg1 arg2 harg2 arg3 harg3 arg4 harg4 arg5 harg5 x0 x1 x2 = bodyOut x0 x1 x2 := by
  unfold out0_A_3
  unfold kernelRun0_A
  dsimp only
  sl_unfold_run_names
  rw [View.read_writes_junk_eq_canon, View.canon_unit_zero hz3]
  have e0 : View.readAt (Elt F) arg1.view (Rect.unit (s := S1x4096x64) ![0, 0, 0] S1x4096x64.size inb_S1x4096x64_S1x4096x64_0_0_0).toLoadRect (harg1.unread x0) = x0 := by
    rw [View.readAt_eq_ld, harg1.read_unread, View.ld_unit_zero hz3]
  have e1 : View.readAt (Elt F) arg2.view (Rect.unit (s := S1x64x64) ![0, 0, 0] S1x64x64.size inb_S1x64x64_S1x64x64_0_0_0).toLoadRect (harg2.unread x1) = x1 := by
    rw [View.readAt_eq_ld, harg2.read_unread, View.ld_unit_zero hz3]
  have e2 : View.readAt (Elt F) arg3.view (Rect.unit (s := S1x64x64) ![0, 0, 0] S1x64x64.size inb_S1x64x64_S1x64x64_0_0_0).toLoadRect (harg3.unread x2) = x2 := by
    rw [View.readAt_eq_ld, harg3.read_unread, View.ld_unit_zero hz3]
  rw [e0, e1, e2]
  have hs1 : ∀ w : FVec F S4096x64 .f32, arg5.view.read (Elt F) (arg5.view.writes (Elt F) arg5.view.junk [⟨Rect.unit (s := S4096x64) ![0, 0] S4096x64.size inb_S4096x64_S4096x64_0_0, w⟩]) = w := fun w => by
    rw [View.read_writes_junk_eq_canon, View.canon_unit_zero hz2]
  have hs2 : ∀ (w : FVec F S4096x64 .f32) (p : View.Piece (Elt F) S4096x64 .f32), arg5.view.read (Elt F) (arg5.view.writes (Elt F) arg5.view.junk [⟨Rect.unit (s := S4096x64) ![0, 0] S4096x64.size inb_S4096x64_S4096x64_0_0, w⟩, p]) = w := fun w p => by
    rw [View.read_writes_junk_eq_canon, View.canon_cons_unit_zero hz2]
  simp only [st1_eq Variants.none c none i arg1 harg1 arg2 harg2 arg3 harg3 arg4 harg4 arg5 harg5 x0 x0 (harg1.unread x0) (harg1.read_unread x0)]
  simp only [st2_eq Variants.none c none i arg1 harg1 arg2 harg2 arg3 harg3 arg4 harg4 arg5 harg5 x0 x0 _ (harg1.unread x0) _ (harg1.read_unread x0) (hs1 _)]
  simp only [st3_eq Variants.none c none i arg1 harg1 arg2 harg2 arg3 harg3 arg4 harg4 arg5 harg5 _ _ _ _ _ _ x0 _ (harg1.unread x0) _ (harg1.read_unread x0) (hs2 _ _)]
  rfl

end Cert.KernelIdeal.Term

end
-- ==== Proof.Diffusion.lean ====
/-
  Two arrangements of one graph-diffusion layer on the extended reals, and the law that joins them.

  A row-stochastic-like operator is built from a 0/1 adjacency `A`: with `deg n = ∑ m, A n m` and
  `d n = deg n ^ (-1/2)`, one layer sends node features `v` to
      relu (instanceNorm ((D^{-1/2} A D^{-1/2} v) W)).
  One arrangement scales `v` by `d`, sums against `A`, and scales the sum by `d` again, takes `d` as a reciprocal
  square root and normalises by a product with a reciprocal square root; the other forms the matrix entries
  `(A n m · d n) · d m` first, takes `d` as `1 / sqrt`, and normalises by a quotient with a square root.

  Nothing here needs the features to be finite. Multiplication of extended reals is commutative and associative
  without exception, so the only step with a side condition is moving `d n` across the sum over `m`:
  a row of `A` is all zero exactly when `deg n = 0`, where `d n = ⊤` meets a zero sum on one side and zero
  entries on the other; otherwise `deg n` is a positive real, `d n` a non-negative real, and a non-negative real
  distributes over every sum of extended reals. The variance plus a positive epsilon is positive, where
  `x · rsqrt s` and `x / sqrt s` agree (also at `s = ⊤`, both `0`).
-/
import Idealize.ShloMosaic.PureOps.Ideal
import Idealize.ShloMosaic.PureOps.Ideal.Laws

noncomputable section

namespace Cert.Diffusion

open Idealize.ShloMosaic

/-! ## Extended-real facts -/

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A non-negative real distributes over a finite sum of extended reals. -/
theorem coe_mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- A square is non-negative, at the infinities too. -/
theorem mul_self_nonneg (x : EReal) : 0 ≤ x * x := by
  rcases le_total 0 x with h | h
  · exact EReal.mul_nonneg h h
  · exact EReal.mul_nonneg_iff.mpr (Or.inr ⟨h, h⟩)

/-- `1 / sqrt x` is the reciprocal square root on the non-negative extended reals (at `0` both are `⊤`, at `⊤` both `0`). -/
theorem div_one_sqrt {x : EReal} (hx : 0 ≤ x) : Ideal.div 1 (Ideal.sqrt x) = Ideal.rsqrt x := by
  induction x using EReal.rec with
  | bot => exact absurd hx (by simp)
  | top => simp [Ideal.div]
  | coe r =>
    have hr : 0 ≤ r := EReal.coe_nonneg.mp hx
    rw [Ideal.sqrt_coe, Ideal.rsqrt_coe, if_neg (not_lt.mpr hr), if_neg (not_lt.mpr hr)]
    by_cases h0 : r = 0
    · subst h0
      simp [Ideal.div]
    · rw [if_neg h0]
      have hs : Real.sqrt r ≠ 0 := (Real.sqrt_ne_zero hr).mpr h0
      rw [Ideal.div, if_neg (by exact_mod_cast hs), one_mul, EReal.coe_inv]

/-- A product with the reciprocal square root is the quotient by the square root, wherever the argument is positive. -/
theorem mul_rsqrt {s : EReal} (hs : 0 < s) (c : EReal) : c * Ideal.rsqrt s = Ideal.div c (Ideal.sqrt s) := by
  induction s using EReal.rec with
  | bot => exact absurd hs (by simp)
  | top => simp [Ideal.div]
  | coe r =>
    have hr : 0 < r := EReal.coe_pos.mp hs
    have hq : Real.sqrt r ≠ 0 := (Real.sqrt_pos.mpr hr).ne'
    rw [Ideal.sqrt_coe, Ideal.rsqrt_coe, if_neg (not_lt.mpr hr.le), if_neg (not_lt.mpr hr.le), if_neg hr.ne',
      Ideal.div, if_neg (by exact_mod_cast hq), EReal.coe_inv]

/-- The quotient of a non-negative number by a positive one is non-negative. -/
theorem div_nonneg {x y : EReal} (hx : 0 ≤ x) (hy : 0 < y) : 0 ≤ Ideal.div x y := by
  rw [Ideal.div, if_neg hy.ne']
  exact EReal.mul_nonneg hx (EReal.inv_nonneg_of_nonneg hy.le)

/-! ## The degree of a 0/1 row -/

variable {ι κ : Type} [Fintype ι] [Fintype κ]

/-- A row of zeros and ones is all zero, or sums to a positive real. -/
theorem row_cases (a : ι → EReal) (ha : ∀ m, a m = 0 ∨ a m = 1) :
    (∀ m, a m = 0) ∨ ∃ r : ℝ, 0 < r ∧ ∑ m, a m = (r : EReal) := by
  classical
  by_cases h : ∀ m, a m = 0
  · exact Or.inl h
  · right
    obtain ⟨m0, hm0⟩ := not_forall.mp h
    have h1 : a m0 = 1 := (ha m0).resolve_left hm0
    let b : ι → ℝ := fun m => if a m = 1 then 1 else 0
    have hb : ∀ m, a m = (b m : EReal) := fun m => by
      rcases ha m with h | h
      · have : ¬ a m = 1 := by rw [h]; exact zero_ne_one
        simp only [b, if_neg this, h, EReal.coe_zero]
      · simp only [b, if_pos h, h, EReal.coe_one]
    refine ⟨∑ m, b m, ?_, ?_⟩
    · have hb0 : ∀ m ∈ Finset.univ, 0 ≤ b m := fun m _ => by
        simp only [b]; split <;> norm_num
      have : b m0 ≤ ∑ m, b m := Finset.single_le_sum hb0 (Finset.mem_univ m0)
      have hbm : b m0 = 1 := by simp only [b, if_pos h1]
      linarith
    · rw [coe_sum]
      exact Finset.sum_congr rfl fun m _ => hb m

/-- The reciprocal square root of a 0/1 row's degree moves across the row's sum. -/
theorem rsqrt_deg_mul_sum (a : ι → EReal) (ha : ∀ m, a m = 0 ∨ a m = 1) (u : ι → EReal) :
    Ideal.rsqrt (∑ m, a m) * ∑ m, a m * u m = ∑ m, (a m * Ideal.rsqrt (∑ m, a m)) * u m := by
  rcases row_cases a ha with h | ⟨r, hr, hsum⟩
  · have e1 : ∑ m, a m * u m = 0 := Finset.sum_eq_zero fun m _ => by rw [h m, zero_mul]
    have e2 : ∑ m, (a m * Ideal.rsqrt (∑ m, a m)) * u m = 0 :=
      Finset.sum_eq_zero fun m _ => by rw [h m, zero_mul, zero_mul]
    rw [e1, e2, mul_zero]
  · rw [hsum, Ideal.rsqrt_coe, if_neg (not_lt.mpr hr.le), if_neg hr.ne']
    rw [coe_mul_sum _ _ (inv_nonneg.mpr (Real.sqrt_nonneg r))]
    refine Finset.sum_congr rfl fun m _ => ?_
    rw [← mul_assoc, mul_comm _ (a m)]

/-- A 0/1 row's degree is non-negative. -/
theorem deg_nonneg (a : ι → EReal) (ha : ∀ m, a m = 0 ∨ a m = 1) : 0 ≤ ∑ m, a m :=
  Finset.sum_nonneg fun m _ => by rcases ha m with h | h <;> rw [h] <;> norm_num

/-! ## One layer, in the two arrangements -/

/-- Scale by `d`, sum against the adjacency, scale by `d`: `d = rsqrt deg`. -/
def diffuseK (A : ι → ι → EReal) (v : ι → κ → EReal) (n : ι) (c : κ) : EReal :=
  Ideal.rsqrt (∑ m, A n m) * ∑ m, A n m * (Ideal.rsqrt (∑ k, A m k) * v m c)

/-- The normalised matrix first: entries `(A n m · d n) · d m` with `d = 1 / sqrt deg`, then the product with `v`. -/
def diffuseR (A : ι → ι → EReal) (v : ι → κ → EReal) (n : ι) (c : κ) : EReal :=
  ∑ m, ((A n m * Ideal.div 1 (Ideal.sqrt (∑ k, A n k))) * Ideal.div 1 (Ideal.sqrt (∑ k, A m k))) * v m c

theorem diffuse_eq (A : ι → ι → EReal) (hA : ∀ n m, A n m = 0 ∨ A n m = 1) (v : ι → κ → EReal) :
    diffuseK A v = diffuseR A v := by
  funext n c
  unfold diffuseK diffuseR
  rw [rsqrt_deg_mul_sum (A n) (hA n)]
  refine Finset.sum_congr rfl fun m _ => ?_
  rw [div_one_sqrt (deg_nonneg (A n) (hA n)), div_one_sqrt (deg_nonneg (A m) (hA m)), mul_assoc, mul_assoc, mul_assoc]

/-- The product of node features with a weight matrix. -/
def proj (h : ι → κ → EReal) (W : κ → κ → EReal) (n : ι) (f : κ) : EReal := ∑ c, h n c * W c f

/-- A row's mean: its sum over the count. -/
def mean (cnt : EReal) (h : ι → κ → EReal) (n : ι) : EReal := Ideal.div (∑ f, h n f) cnt

/-- A row's mean squared deviation. -/
def var (cnt : EReal) (h : ι → κ → EReal) (n : ι) : EReal :=
  Ideal.div (∑ f, (h n f - mean cnt h n) * (h n f - mean cnt h n)) cnt

/-- Normalise by a product with the reciprocal square root, then rectify. -/
def normK (cnt eps : EReal) (h : ι → κ → EReal) (n : ι) (f : κ) : EReal :=
  max ((h n f - mean cnt h n) * Ideal.rsqrt (var cnt h n + eps)) 0

/-- Normalise by a quotient with the square root, then rectify. -/
def normR (cnt eps : EReal) (h : ι → κ → EReal) (n : ι) (f : κ) : EReal :=
  max (Ideal.div (h n f - mean cnt h n) (Ideal.sqrt (var cnt h n + eps))) 0

theorem var_add_pos {cnt eps : EReal} (hc : 0 < cnt) (he : 0 < eps) (h : ι → κ → EReal) (n : ι) :
    0 < var cnt h n + eps := by
  have hv : 0 ≤ var cnt h n := div_nonneg (Finset.sum_nonneg fun f _ => mul_self_nonneg _) hc
  calc (0 : EReal) < eps := he
    _ = 0 + eps := (zero_add eps).symm
    _ ≤ var cnt h n + eps := add_le_add_left hv eps

theorem norm_eq {cnt eps : EReal} (hc : 0 < cnt) (he : 0 < eps) (h : ι → κ → EReal) :
    normK cnt eps h = normR cnt eps h := by
  funext n f
  unfold normK normR
  rw [mul_rsqrt (var_add_pos hc he h n)]

/-- One layer in the first arrangement. -/
def layerK (A : ι → ι → EReal) (cnt eps : EReal) (v : ι → κ → EReal) (W : κ → κ → EReal) : ι → κ → EReal :=
  normK cnt eps (proj (diffuseK A v) W)

/-- One layer in the second arrangement. -/
def layerR (A : ι → ι → EReal) (cnt eps : EReal) (v : ι → κ → EReal) (W : κ → κ → EReal) : ι → κ → EReal :=
  normR cnt eps (proj (diffuseR A v) W)

theorem layer_eq (A : ι → ι → EReal) (hA : ∀ n m, A n m = 0 ∨ A n m = 1) {cnt eps : EReal} (hc : 0 < cnt) (he : 0 < eps)
    (v : ι → κ → EReal) (W : κ → κ → EReal) : layerK A cnt eps v W = layerR A cnt eps v W := by
  unfold layerK layerR
  rw [diffuse_eq A hA, norm_eq hc he]

/-! ## The adjacency of thresholded cosine similarities -/

/-- A row's Euclidean norm. -/
def nrm (X : ι → κ → EReal) (n : ι) : EReal := Ideal.sqrt (∑ c, X n c * X n c)

/-- The cosine similarity of two rows. -/
def corr (X : ι → κ → EReal) (n m : ι) : EReal := Ideal.div (∑ c, X n c * X m c) (nrm X n * nrm X m)

/-- One where the similarity exceeds the threshold, zero elsewhere. -/
def adj (thr : EReal) (X : ι → κ → EReal) (n m : ι) : EReal := if thr < corr X n m then 1 else 0

theorem adj_cases (thr : EReal) (X : ι → κ → EReal) (n m : ι) : adj thr X n m = 0 ∨ adj thr X n m = 1 := by
  unfold adj; split
  · exact Or.inr rfl
  · exact Or.inl rfl

/-- Two layers over the adjacency of `X`, starting from `X`, in each arrangement. -/
def netK (thr cnt eps : EReal) (X : ι → κ → EReal) (W0 W1 : κ → κ → EReal) : ι → κ → EReal :=
  layerK (adj thr X) cnt eps (layerK (adj thr X) cnt eps X W0) W1

def netR (thr cnt eps : EReal) (X : ι → κ → EReal) (W0 W1 : κ → κ → EReal) : ι → κ → EReal :=
  layerR (adj thr X) cnt eps (layerR (adj thr X) cnt eps X W0) W1

theorem net_eq (thr : EReal) {cnt eps : EReal} (hc : 0 < cnt) (he : 0 < eps) (X : ι → κ → EReal) (W0 W1 : κ → κ → EReal) :
    netK thr cnt eps X W0 W1 = netR thr cnt eps X W0 W1 := by
  unfold netK netR
  rw [layer_eq _ (adj_cases thr X) hc he, layer_eq _ (adj_cases thr X) hc he]

/-! ## Sums in tiles -/

/-- A sum over nodes is the sum over tiles of the sums within each tile. -/
theorem sum_tiles {τ σ : Type} [Fintype τ] [Fintype σ] (e : τ × σ ≃ ι) (f : ι → EReal) :
    ∑ m, f m = ∑ k, ∑ j, f (e (k, j)) := by
  rw [← e.sum_comp, Fintype.sum_prod_type]

/-- An accumulator that adds one term per trip holds, after `K` trips, its start plus the terms. -/
theorem acc_closed {α : Type} (st : ℕ → α → EReal) (g : ℕ → α → EReal) (h0 : α → EReal)
    (hz : st 0 = h0) (hs : ∀ k, st (k + 1) = fun a => st k a + g k a) (K : ℕ) (a : α) :
    st K a = h0 a + ∑ k ∈ Finset.range K, g k a := by
  induction K with
  | zero => simp [hz]
  | succ K ih => rw [hs K, Finset.sum_range_succ, ← add_assoc, ← ih]

end Cert.Diffusion

end
-- ==== Proof.LibCols.lean ====
/-
  A column of per-row numbers against a matrix, read entry by entry. A vector of `a` entries made a column `[a, 1]`
  reads its entry `p` at `(p, 0)`; a column repeated across `b` columns reads its entry `p` at `(p, c)`. Both in the
  vector unit's spelling (a shape cast, a broadcast) and in the host's (two `broadcast_in_dim`s). These are the forms
  a keep-dimensions row reduction takes on its way back to the matrix it was reduced from.
-/
import Idealize.ShloMosaic.Lib.Pipeline.Value
import Idealize.ShloMosaic.Lib.ValueIdx
import Idealize.ShloMosaic.Lib.ValueLayout

namespace Cert.LibCols

open Idealize.ShloMosaic Idealize.ShloMosaic.ValueIdx

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's column: an `[a]` vector broadcast along axis 0 into `[a, 1]` reads, at `(p, u)`, the vector's entry `p`. -/
theorem inDim_a_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's repeated column: an `[a, 1]` array broadcast along both axes into `[a, b]` reads, at `(p, c)`, entry `p`. -/
theorem inDim_a1_ab_apply {a b : ℕ} (v : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.LibCols
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.KernelEntry.lean ====
/-
  The body's payloads read entry by entry on the extended reals.

  Everything the body computes is a function of rows: a row's norm, the thresholded cosine similarity of two rows (one
  of them from the tile of 512 rows a sweep's trip loads), a row's degree, a row of the diffused features, a row's mean
  and mean squared deviation. Each payload is read here at one entry as the corresponding quantity of `Cert.Diffusion`.
-/
import proofs.«162762_j24618752540869_2_alg».proof.Proof.KernelTerm
import proofs.«162762_j24618752540869_2_alg».proof.Proof.Diffusion
import proofs.«162762_j24618752540869_2_alg».proof.Proof.LibCols
import proofs.«162762_j24618752540869_2_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entry

open Cert.KernelIdeal Cert.KernelIdeal.Gen Cert.KernelIdeal.Term Cert.Diffusion
open Idealize.ShloMosaic Idealize.ShloMosaic.ValueIdx

/-! ## Rows, sums along rows, products of matrices -/

/-- A sum along the rows of a matrix, read at a row. -/
theorem rowSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => congrArg v ?_
  funext ax
  apply Fin.ext
  match ax with
  | ⟨0, _⟩ => rfl
  | ⟨1, _⟩ => rfl

/-- The same sum kept as a column `[a, 1]`. -/
theorem rowSumCol_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ v 0x00000000#32 h hφ hacc) hc (ix2 p u) = ∑ k : Fin b, v (ix2 p k) :=
  (Cert.LibCols.shapeCast_a_a1_apply _ hc p u).trans (rowSum_apply v h hφ hacc p)

/-- A product with the right operand contracted on its last axis, into a zero accumulator: `∑ i, l (p, i) · r (q, i)`. -/
theorem matmulT_apply {M K N : Nat} (D : DotDims ⟨2, ![M, K]⟩ ⟨2, ![N, K]⟩ ⟨2, ![M, N]⟩)
    (hD : D = DotDims.transposedRhs M K N) (prec : Option ContractPrecision)
    (l : FVec Ideal ⟨2, ![M, K]⟩ .f32) (r : FVec Ideal ⟨2, ![N, K]⟩ .f32) (p : Fin M) (q : Fin N) :
    matmul D prec l r (constant ⟨2, ![M, N]⟩ .f32 0x00000000#32) (ix2 p q) = ∑ i : Fin K, l (ix2 p i) * r (ix2 q i) := by
  subst hD
  refine (Ideal.matmul_constant_zero_apply (DotDims.transposedRhs M K N) prec l r (ix2 p q)).trans ?_
  rw [← Equiv.sum_comp (contrEquiv1 (DotDims.transposedRhs M K N) K rfl rfl).symm]
  refine Finset.sum_congr rfl fun i _ => ?_
  have hk := contrEquiv1_symm_val (DotDims.transposedRhs M K N) K rfl rfl i
  have el : (DotDims.transposedRhs M K N).lhsIdx (ix2 p q) ((contrEquiv1 (DotDims.transposedRhs M K N) K rfl rfl).symm i) = ix2 p i := by
    funext a
    apply Fin.ext
    match a with
    | ⟨0, _⟩ => rfl
    | ⟨1, _⟩ => exact ((DotDims.transposedRhs M K N).lhsIdx_val_of_single (cl := (1 : Fin 2)) rfl (ix2 p q) _).trans hk
  have er : (DotDims.transposedRhs M K N).rhsIdx (ix2 p q) ((contrEquiv1 (DotDims.transposedRhs M K N) K rfl rfl).symm i) = ix2 q i := by
    funext a
    apply Fin.ext
    match a with
    | ⟨0, _⟩ => rfl
    | ⟨1, _⟩ => exact ((DotDims.transposedRhs M K N).rhsIdx_val_of_single (cr := (1 : Fin 2)) rfl (ix2 p q) _).trans hk
  rw [el, er]

/-- A plain product into a zero accumulator: `∑ i, l (p, i) · r (i, q)`. -/
theorem matmulP_apply {M K N : Nat} (D : DotDims ⟨2, ![M, K]⟩ ⟨2, ![K, N]⟩ ⟨2, ![M, N]⟩)
    (hD : D = DotDims.plain M K N) (prec : Option ContractPrecision)
    (l : FVec Ideal ⟨2, ![M, K]⟩ .f32) (r : FVec Ideal ⟨2, ![K, N]⟩ .f32) (p : Fin M) (q : Fin N) :
    matmul D prec l r (constant ⟨2, ![M, N]⟩ .f32 0x00000000#32) (ix2 p q) = ∑ i : Fin K, l (ix2 p i) * r (ix2 i q) := by
  subst hD
  refine (Ideal.matmul_constant_zero_apply (DotDims.plain M K N) prec l r (ix2 p q)).trans ?_
  exact Cert.LibDot.plain_sum M K N l r p q

/-- A comparison's bit, widened and read as a signed integer, is one or zero. -/
theorem bit_sitofp (p : Prop) [Decidable p] :
    FloatOps.sitofp (F := Ideal) .f32 ((BitVec.ofBool (decide p)).setWidth 32) = if p then (1 : EReal) else 0 := by
  show (((((BitVec.ofBool (decide p)).setWidth 32).toInt : ℤ) : ℝ) : EReal) = _
  by_cases hp : p
  · simp [hp]
  · simp [hp]

/-- The norm of a row of a matrix whose entries are `Y`. -/
theorem rowNorm_apply {a b : ℕ} (w : FVec Ideal ⟨2, ![a, b]⟩ .f32) (Y : Fin a → Fin b → EReal) (hw : ∀ p c, w (ix2 p c) = Y p c)
    (h : Shape.Reduces ⟨2, ![a, b]⟩ [1] ⟨1, ![a]⟩) (hφ : FKind.Formats .f32) (hacc : (0x00000000#32 : BitVec 32) = FKind.add.neutral .f32 hφ)
    (hc : (⟨1, ![a]⟩ : Shape).ShapeCasts ⟨2, ![a, 1]⟩) (p : Fin a) (u : Fin 1) :
    sqrt (shapeCast ⟨2, ![a, 1]⟩ (multiReduction .add [1] ⟨1, ![a]⟩ (mulf w w) 0x00000000#32 h hφ hacc) hc) (ix2 p u) = nrm Y p := by
  show Ideal.sqrt (shapeCast ⟨2, ![a, 1]⟩ (multiReduction .add [1] ⟨1, ![a]⟩ (mulf w w) 0x00000000#32 h hφ hacc) hc (ix2 p u)) = _
  rw [rowSumCol_apply]
  unfold nrm
  refine congrArg Ideal.sqrt (Finset.sum_congr rfl fun k _ => ?_)
  show w (ix2 p k) * w (ix2 p k) = _
  rw [hw]

/-! ## One tile of the adjacency -/

/-- The threshold of the similarity, the row length as a float, and the variance's epsilon, as the body spells them. -/
abbrev thr : EReal := Ideal.ofBits .f32 0x3BA3D70A#32
abbrev cnt : EReal := Ideal.ofBits .f32 0x42800000#32
abbrev eps : EReal := Ideal.ofBits .f32 0x3727C5AC#32

/-- The 0/1 adjacency between all 4096 rows (`v1`, with norms `v5`) and the 512 rows of a loaded tile `v82`: the part
    the three sweeps' trips share. -/
def adjTile {F : FTy → Type} [FloatOps F] (v1 : FVec F S4096x64 .f32) (v5 : FVec F S4096x1 .f32) (v82 : Vec F S1x512x64 .f32) : FVec F S4096x512 .f32 :=
  have v83 : FVec F S512x64 .f32 := shapeCast S512x64 v82 shapeCasts_S1x512x64_S512x64
  have v84 : FVec F S512x64 .f32 := mulf v83 v83
  have v85 : FVec F S512 .f32 := multiReduction .add [1] S512 v84 0x00000000#32 reduces_S512x64_S512 (.inl rfl) rfl
  have v86 : FVec F S512x1 .f32 := shapeCast S512x1 v85 shapeCasts_S512_S512x1
  have v87 : FVec F S512x1 .f32 := sqrt v86
  have cst_44 : FVec F S4096x512 .f32 := constant S4096x512 .f32 0x00000000#32
  have v88 : FVec F S4096x512 .f32 := matmul dot_S4096x64_S512x64_S4096x512_1_1_0_0_n_n (some .fp32) v1 v83 cst_44
  have v89 : FVec F S1x512 .f32 := transpose S1x512 [1, 0] v87 transposes_S512x1_p1_0_S1x512
  have v90 : FVec F S4096x512 .f32 := broadcastTo S4096x512 v5 broadcasts_S4096x1_S4096x512
  have v91 : FVec F S4096x512 .f32 := broadcastTo S4096x512 v89 broadcasts_S1x512_S4096x512
  have v92 : FVec F S4096x512 .f32 := mulf v90 v91
  have v93 : FVec F S4096x512 .f32 := divf v88 v92
  have cst_45 : F .f32 := Scalar.ofBits .f32 0x3BA3D70A#32
  have v94 : FVec F S4096x512 .f32 := broadcast S4096x512 cst_45
  have v95 : IVec S4096x512 1 := cmpf .ogt v93 v94
  have v96 : IVec S4096x512 32 := extui 32 v95 natLt_1_32
  have v97 : FVec F S4096x512 .f32 := sitofp .f32 v96
  v97

section generic
variable {F : FTy → Type} [FloatOps F]

theorem pay5_eq (v0 : Vec F S1x4096x64 .f32) (acc : FVec F S4096x1 .f32) (v82 : Vec F S1x512x64 .f32) :
    k0_pay5 v0 acc v82 = addf acc (shapeCast S4096x1 (multiReduction .add [1] S4096 (adjTile (k0_pay2 v0) (k0_pay3 v0) v82) 0x00000000#32 reduces_S4096x512_S4096 (.inl rfl) rfl) shapeCasts_S4096_S4096x1) := rfl

theorem pay9_eq (v0 : Vec F S1x4096x64 .f32) (acc : FVec F S4096x64 .f32) (v82 : Vec F S1x512x64 .f32) (v99 : Vec F S512x64 .f32) :
    k0_pay9 v0 acc v82 v99 = addf acc (matmul dot_S4096x512_S512x64_S4096x64_1_0_0_1_n_n none (adjTile (k0_pay2 v0) (k0_pay3 v0) v82) v99 (constant S4096x64 .f32 0x00000000#32)) := rfl

theorem pay15_eq (v1 : FVec F S4096x64 .f32) (v5 : FVec F S4096x1 .f32) (acc : FVec F S4096x64 .f32) (v82 : Vec F S1x512x64 .f32) (v99 : Vec F S512x64 .f32) :
    k0_pay15 v1 v5 acc v82 v99 = addf acc (matmul dot_S4096x512_S512x64_S4096x64_1_0_0_1_n_n none (adjTile v1 v5 v82) v99 (constant S4096x64 .f32 0x00000000#32)) := rfl

/-- The accumulator scaled by the column `v9`, times the weights. -/
def projV (v9 : FVec F S4096x1 .f32) (acc : FVec F S4096x64 .f32) (w : Vec F S1x64x64 .f32) : FVec F S4096x64 .f32 :=
  have v18 : FVec F S4096x64 .f32 := broadcastTo S4096x64 v9 broadcasts_S4096x1_S4096x64
  have v19 : FVec F S4096x64 .f32 := mulf v18 acc
  have v21 : FVec F S64x64 .f32 := shapeCast S64x64 w shapeCasts_S1x64x64_S64x64
  have cst_14 : FVec F S4096x64 .f32 := constant S4096x64 .f32 0x00000000#32
  have v22 : FVec F S4096x64 .f32 := matmul dot_S4096x64_S64x64_S4096x64_1_0_0_1_n_n none v19 v21 cst_14
  v22

/-- The row means, as a column. -/
def meanV (h : FVec F S4096x64 .f32) : FVec F S4096x1 .f32 :=
  have v23 : FVec F S4096 .f32 := multiReduction .add [1] S4096 h 0x00000000#32 reduces_S4096x64_S4096 (.inl rfl) rfl
  have v24 : FVec F S4096x1 .f32 := shapeCast S4096x1 v23 shapeCasts_S4096_S4096x1
  have cst_16 : F .f32 := Scalar.ofBits .f32 0x42800000#32
  have v25 : FVec F S4096x1 .f32 := broadcast S4096x1 cst_16
  have v26 : FVec F S4096x1 .f32 := divf v24 v25
  v26

/-- The deviations from the row means. -/
def cenV (h : FVec F S4096x64 .f32) (mean : FVec F S4096x1 .f32) : FVec F S4096x64 .f32 :=
  have v27 : FVec F S4096x64 .f32 := broadcastTo S4096x64 mean broadcasts_S4096x1_S4096x64
  have v28 : FVec F S4096x64 .f32 := subf h v27
  v28

/-- The row variances, as a column. -/
def varV (h : FVec F S4096x64 .f32) (mean : FVec F S4096x1 .f32) : FVec F S4096x1 .f32 :=
  have v29 : FVec F S4096x64 .f32 := mulf (cenV h mean) (cenV h mean)
  have v30 : FVec F S4096 .f32 := multiReduction .add [1] S4096 v29 0x00000000#32 reduces_S4096x64_S4096 (.inl rfl) rfl
  have v31 : FVec F S4096x1 .f32 := shapeCast S4096x1 v30 shapeCasts_S4096_S4096x1
  have cst_18 : F .f32 := Scalar.ofBits .f32 0x42800000#32
  have v32 : FVec F S4096x1 .f32 := broadcast S4096x1 cst_18
  have v33 : FVec F S4096x1 .f32 := divf v31 v32
  v33

/-- The deviations times the reciprocal square root of the variance plus epsilon. -/
def normV (h : FVec F S4096x64 .f32) (mean var : FVec F S4096x1 .f32) : FVec F S4096x64 .f32 :=
  have cst_19 : F .f32 := Scalar.ofBits .f32 0x3727C5AC#32
  have v36 : FVec F S4096x1 .f32 := broadcast S4096x1 cst_19
  have v37 : FVec F S4096x1 .f32 := addf var v36
  have v38 : FVec F S4096x1 .f32 := rsqrt v37
  have v39 : FVec F S4096x64 .f32 := broadcastTo S4096x64 v38 broadcasts_S4096x1_S4096x64
  have v40 : FVec F S4096x64 .f32 := mulf (cenV h mean) v39
  v40

theorem pay10_eq (v8 : FVec F S4096x1 .f32) (v17 : FVec F S4096x64 .f32) (v20 : Vec F S1x64x64 .f32) :
    k0_pay10 v8 v17 v20 = projV (k0_pay6 v8) v17 v20 := rfl
theorem pay11_eq (v8 : FVec F S4096x1 .f32) (v17 : FVec F S4096x64 .f32) (v20 : Vec F S1x64x64 .f32) :
    k0_pay11 v8 v17 v20 = meanV (k0_pay10 v8 v17 v20) := rfl
theorem pay12_eq (v8 : FVec F S4096x1 .f32) (v17 : FVec F S4096x64 .f32) (v20 : Vec F S1x64x64 .f32) :
    k0_pay12 v8 v17 v20 = varV (k0_pay10 v8 v17 v20) (k0_pay11 v8 v17 v20) := rfl
theorem pay16_eq (v9 : FVec F S4096x1 .f32) (v50 : FVec F S4096x64 .f32) (v53 : Vec F S1x64x64 .f32) :
    k0_pay16 v9 v50 v53 = normV (projV v9 v50 v53) (meanV (projV v9 v50 v53)) (varV (projV v9 v50 v53) (meanV (projV v9 v50 v53))) := rfl
theorem pay13_eq (v9 : FVec F S4096x1 .f32) (v22 : FVec F S4096x64 .f32) (v26 v33 : FVec F S4096x1 .f32) :
    k0_pay13 v9 v22 v26 v33 = shapeCast S4096x64 (mulf (broadcastTo S4096x64 v9 broadcasts_S4096x1_S4096x64)
      (maximumf (normV v22 v26 v33) (broadcast S4096x64 (Scalar.ofBits .f32 0x00000000#32)))) shapeCasts_S4096x64_S4096x64 := rfl

end generic

/-- An entry of the tile is the adjacency of row `n` and the tile's row `j`, when the matrix reads `X`, the norms are `X`'s,
    and the tile's rows are the rows `r j` of `X`. -/
theorem adjTile_apply (X : Fin 4096 → Fin 64 → EReal) (v1 : FVec Ideal S4096x64 .f32) (v5 : FVec Ideal S4096x1 .f32) (v82 : Vec Ideal S1x512x64 .f32)
    (r : Fin 512 → Fin 4096) (h1 : ∀ n c, v1 (ix2 n c) = X n c) (h5 : ∀ n, v5 (ix2 n (0 : Fin 1)) = nrm X n)
    (h82 : ∀ j c, v82 (ix3 (0 : Fin 1) j c) = X (r j) c) (n : Fin 4096) (j : Fin 512) :
    adjTile v1 v5 v82 (ix2 n j) = adj thr X n (r j) := by
  unfold adjTile
  have e83 : ∀ q c, shapeCast S512x64 v82 shapeCasts_S1x512x64_S512x64 (ix2 q c) = X (r q) c := fun q c =>
    (shapeCast_1ab_ab_apply v82 shapeCasts_S1x512x64_S512x64 q c).trans (h82 q c)
  generalize shapeCast S512x64 v82 shapeCasts_S1x512x64_S512x64 = v83 at e83 ⊢
  have hn : ∀ q, nrm (fun q c => X (r q) c) q = nrm X (r q) := fun q => rfl
  have e87 : ∀ q, _ = nrm X (r q) := fun q =>
    (rowNorm_apply v83 (fun q c => X (r q) c) e83 reduces_S512x64_S512 (.inl rfl) rfl shapeCasts_S512_S512x1 q 0).trans (hn q)
  have eg : matmul (φ₁ := .f32) (φ₂ := .f32) dot_S4096x64_S512x64_S4096x512_1_1_0_0_n_n (some .fp32) v1 v83 (constant S4096x512 .f32 0x00000000#32) (ix2 n j)
      = ∑ i : Fin 64, X n i * X (r j) i :=
    (matmulT_apply dot_S4096x64_S512x64_S4096x512_1_1_0_0_n_n rfl (some .fp32) v1 v83 n j).trans
      (Finset.sum_congr rfl fun i _ => by rw [h1, e83])
  have e90 : broadcastTo S4096x512 v5 broadcasts_S4096x1_S4096x512 (ix2 n j) = nrm X n :=
    (Cert.LibCols.broadcastTo_a1_ab_apply v5 broadcasts_S4096x1_S4096x512 n j).trans (h5 n)
  have e91 : _ = nrm X (r j) :=
    (broadcastTo_1b_ab_apply _ broadcasts_S1x512_S4096x512 n j).trans
      ((transpose_ix2_apply _ transposes_S512x1_p1_0_S1x512 (0 : Fin 1) j).trans (e87 j))
  show FloatOps.sitofp (F := Ideal) .f32 ((FloatOps.cmpf .ogt (Ideal.div _ (_ * _)) (Ideal.ofBits .f32 0x3BA3D70A#32)).setWidth 32) = _
  rw [eg, e90, e91]
  exact bit_sitofp _

/-! ## Tiles of rows -/

/-- Row `j` of tile `t` (the tiles are 512 rows each; eight of them make the 4096 rows). -/
def tileRow (t : ℕ) (j : Fin 512) : Fin 4096 := ⟨(512 * t + j.val) % 4096, Nat.mod_lt _ (by norm_num)⟩

theorem tileRow_val {t : ℕ} (ht : t < 8) (j : Fin 512) : (tileRow t j).val = 512 * t + j.val := by
  have hj := j.isLt
  show (512 * t + j.val) % 4096 = _
  omega

/-- The sums over the eight tiles make the sum over all rows. -/
theorem sum_tileRows (f : Fin 4096 → EReal) : ∑ t ∈ Finset.range 8, ∑ j : Fin 512, f (tileRow t j) = ∑ m, f m := by
  rw [Finset.sum_range, sum_tiles (finProdFinEquiv : Fin 8 × Fin 512 ≃ Fin 4096) f]
  refine Finset.sum_congr rfl fun t _ => Finset.sum_congr rfl fun j _ => congrArg f ?_
  apply Fin.ext
  rw [tileRow_val t.isLt]
  show _ = j.val + 512 * t.val
  omega

theorem trips1 : k0_t1_loop.trips = 8 := by decide +kernel
theorem trips2 : k0_t2_loop.trips = 8 := by decide +kernel
theorem trips3 : k0_t3_loop.trips = 8 := by decide +kernel

/-- A tile of rows of the feature block reads the rows `tileRow t ·` of `X`. -/
theorem rows_apply (x0 : Vec Ideal S1x4096x64 .f32) (X : Fin 4096 → Fin 64 → EReal) (hx : ∀ n c, x0 (ix3 (0 : Fin 1) n c) = X n c)
    (off : Fin 3 → ℕ) (inb : ∀ a, off a + S1x512x64.size a ≤ S1x4096x64.size a) (t : ℕ) (ht : t < 8) (hoff : off = ![0, 512 * t, 0])
    (j : Fin 512) (c : Fin 64) :
    View.ld x0 (Rect.unit (s := S1x4096x64) off S1x512x64.size inb) (ix3 (0 : Fin 1) j c) = X (tileRow t j) c := by
  subst hoff
  rw [← hx]
  show x0 _ = x0 _
  refine congrArg x0 ?_
  funext a
  apply Fin.ext
  have hj := j.isLt
  match a with
  | ⟨0, _⟩ => rfl
  | ⟨1, _⟩ =>
    rw [tileRow_val ht]
    show 512 * t + 1 * j.val = 512 * t + j.val
    omega
  | ⟨2, _⟩ =>
    show 0 + 1 * c.val = c.val
    omega

/-- The same tile of rows of the scratch buffer's contents. -/
theorem srows_apply (S : Vec Ideal S4096x64 .f32) (off : Fin 2 → ℕ) (inb : ∀ a, off a + S512x64.size a ≤ S4096x64.size a) (t : ℕ) (ht : t < 8)
    (hoff : off = ![512 * t, 0]) (j : Fin 512) (c : Fin 64) :
    View.ld S (Rect.unit (s := S4096x64) off S512x64.size inb) (ix2 j c) = S (ix2 (tileRow t j) c) := by
  subst hoff
  show S _ = S _
  refine congrArg S ?_
  funext a
  apply Fin.ext
  have hj := j.isLt
  match a with
  | ⟨0, _⟩ =>
    rw [tileRow_val ht]
    show 512 * t + 1 * j.val = 512 * t + j.val
    omega
  | ⟨1, _⟩ =>
    show 0 + 1 * c.val = c.val
    omega

/-! ## The degree sweep -/

section sweeps

variable (x0 : Vec Ideal S1x4096x64 .f32) (X : Fin 4096 → Fin 64 → EReal) (hx : ∀ n c, x0 (ix3 (0 : Fin 1) n c) = X n c)
include hx

theorem pay2_apply (n : Fin 4096) (c : Fin 64) : k0_pay2 x0 (ix2 n c) = X n c :=
  (shapeCast_1ab_ab_apply x0 shapeCasts_S1x4096x64_S4096x64 n c).trans (hx n c)

theorem pay3_apply (n : Fin 4096) (u : Fin 1) : k0_pay3 x0 (ix2 n u) = nrm X n :=
  rowNorm_apply (k0_pay2 x0) X (pay2_apply x0 X hx) reduces_S4096x64_S4096 (.inl rfl) rfl shapeCasts_S4096_S4096x1 n u

/-- The degree accumulator before trip `k`: the adjacency row summed over the tiles before `k`. -/
theorem degAcc_apply (k : ℕ) (hk : k ≤ 8) (n : Fin 4096) (u : Fin 1) :
    degAcc x0 x0 k0_pay4 k (ix2 n u) = ∑ t ∈ Finset.range k, ∑ j : Fin 512, adj thr X n (tileRow t j) := by
  induction k with
  | zero =>
    rw [Finset.sum_range_zero]
    exact Ideal.ofBits_zero_f32
  | succ k ih =>
    have hk8 : k < 8 := hk
    have hkt : k < k0_t1_loop.trips := by rw [trips1]; exact hk8
    rw [degAcc.eq_2, dif_pos hkt, pay5_eq, Finset.sum_range_succ, ← ih (Nat.le_of_lt hk8)]
    show degAcc x0 x0 k0_pay4 k (ix2 n u) + shapeCast S4096x1 (multiReduction .add [1] S4096 (adjTile (k0_pay2 x0) (k0_pay3 x0) (rows1 x0 ⟨k, hkt⟩)) 0x00000000#32 reduces_S4096x512_S4096 (.inl rfl) rfl) shapeCasts_S4096_S4096x1 (ix2 n u) = _
    refine congrArg (_ + ·) ((rowSumCol_apply _ reduces_S4096x512_S4096 (.inl rfl) rfl shapeCasts_S4096_S4096x1 n u).trans (Finset.sum_congr rfl fun j _ => ?_))
    exact adjTile_apply X _ _ _ (tileRow k) (pay2_apply x0 X hx) (fun n => pay3_apply x0 X hx n 0)
      (fun j c => rows_apply x0 X hx _ _ k hk8 (k0_off1_eq ⟨k, hkt⟩) j c) n j

/-- The degrees. -/
theorem degs_apply (n : Fin 4096) (u : Fin 1) : degs x0 (ix2 n u) = ∑ m, adj thr X n m := by
  unfold degs
  rw [trips1, degAcc_apply x0 X hx 8 le_rfl, sum_tileRows (fun m => adj thr X n m)]

/-- A diffusion accumulator before trip `k`: the adjacency row against the scratch contents, over the tiles before `k`. -/
theorem lapAcc1_apply (S : Vec Ideal S4096x64 .f32) (k : ℕ) (hk : k ≤ 8) (n : Fin 4096) (c : Fin 64) :
    lapAcc1 x0 x0 S k0_pay8 k (ix2 n c) = ∑ t ∈ Finset.range k, ∑ j : Fin 512, adj thr X n (tileRow t j) * S (ix2 (tileRow t j) c) := by
  induction k with
  | zero =>
    rw [Finset.sum_range_zero]
    exact Ideal.ofBits_zero_f32
  | succ k ih =>
    have hk8 : k < 8 := hk
    have hkt : k < k0_t2_loop.trips := by rw [trips2]; exact hk8
    rw [lapAcc1.eq_2, dif_pos hkt, pay9_eq, Finset.sum_range_succ, ← ih (Nat.le_of_lt hk8)]
    show lapAcc1 x0 x0 S k0_pay8 k (ix2 n c) + matmul (φ₁ := .f32) (φ₂ := .f32) dot_S4096x512_S512x64_S4096x64_1_0_0_1_n_n none (adjTile (k0_pay2 x0) (k0_pay3 x0) (rows2 x0 ⟨k, hkt⟩)) (srows2 S ⟨k, hkt⟩) (constant S4096x64 .f32 0x00000000#32) (ix2 n c) = _
    refine congrArg (_ + ·) ((matmulP_apply dot_S4096x512_S512x64_S4096x64_1_0_0_1_n_n rfl none _ _ n c).trans (Finset.sum_congr rfl fun j _ => ?_))
    rw [adjTile_apply X _ _ _ (tileRow k) (pay2_apply x0 X hx) (fun n => pay3_apply x0 X hx n 0)
      (fun j c => rows_apply x0 X hx _ _ k hk8 (k0_off2_eq ⟨k, hkt⟩) j c) n j]
    exact congrArg (_ * ·) (srows_apply S _ _ k hk8 (k0_off3_eq ⟨k, hkt⟩) j c)

theorem lap1_apply (S : Vec Ideal S4096x64 .f32) (n : Fin 4096) (c : Fin 64) :
    lapAcc1 x0 x0 S k0_pay8 k0_t2_loop.trips (ix2 n c) = ∑ m, adj thr X n m * S (ix2 m c) := by
  rw [trips2, lapAcc1_apply x0 X hx S 8 le_rfl, sum_tileRows (fun m => adj thr X n m * S (ix2 m c))]

theorem lapAcc2_apply (S : Vec Ideal S4096x64 .f32) (k : ℕ) (hk : k ≤ 8) (n : Fin 4096) (c : Fin 64) :
    lapAcc2 (k0_pay2 x0) (k0_pay3 x0) x0 S k0_pay14 k (ix2 n c) = ∑ t ∈ Finset.range k, ∑ j : Fin 512, adj thr X n (tileRow t j) * S (ix2 (tileRow t j) c) := by
  induction k with
  | zero =>
    rw [Finset.sum_range_zero]
    exact Ideal.ofBits_zero_f32
  | succ k ih =>
    have hk8 : k < 8 := hk
    have hkt : k < k0_t3_loop.trips := by rw [trips3]; exact hk8
    rw [lapAcc2.eq_2, dif_pos hkt, pay15_eq, Finset.sum_range_succ, ← ih (Nat.le_of_lt hk8)]
    show lapAcc2 (k0_pay2 x0) (k0_pay3 x0) x0 S k0_pay14 k (ix2 n c) + matmul (φ₁ := .f32) (φ₂ := .f32) dot_S4096x512_S512x64_S4096x64_1_0_0_1_n_n none (adjTile (k0_pay2 x0) (k0_pay3 x0) (rows3 x0 ⟨k, hkt⟩)) (srows3 S ⟨k, hkt⟩) (constant S4096x64 .f32 0x00000000#32) (ix2 n c) = _
    refine congrArg (_ + ·) ((matmulP_apply dot_S4096x512_S512x64_S4096x64_1_0_0_1_n_n rfl none _ _ n c).trans (Finset.sum_congr rfl fun j _ => ?_))
    rw [adjTile_apply X _ _ _ (tileRow k) (pay2_apply x0 X hx) (fun n => pay3_apply x0 X hx n 0)
      (fun j c => rows_apply x0 X hx _ _ k hk8 (k0_off4_eq ⟨k, hkt⟩) j c) n j]
    exact congrArg (_ * ·) (srows_apply S _ _ k hk8 (k0_off5_eq ⟨k, hkt⟩) j c)

theorem lap2_apply (S : Vec Ideal S4096x64 .f32) (n : Fin 4096) (c : Fin 64) :
    lapAcc2 (k0_pay2 x0) (k0_pay3 x0) x0 S k0_pay14 k0_t3_loop.trips (ix2 n c) = ∑ m, adj thr X n m * S (ix2 m c) := by
  rw [trips3, lapAcc2_apply x0 X hx S 8 le_rfl, sum_tileRows (fun m => adj thr X n m * S (ix2 m c))]

end sweeps

/-! ## Projection, mean, variance, normalisation, entry by entry -/

theorem projV_apply (v9 : FVec Ideal S4096x1 .f32) (acc : FVec Ideal S4096x64 .f32) (w : Vec Ideal S1x64x64 .f32) (n : Fin 4096) (f : Fin 64) :
    projV v9 acc w (ix2 n f) = ∑ c : Fin 64, (v9 (ix2 n (0 : Fin 1)) * acc (ix2 n c)) * w (ix3 (0 : Fin 1) c f) := by
  unfold projV
  refine (matmulP_apply dot_S4096x64_S64x64_S4096x64_1_0_0_1_n_n rfl none _ _ n f).trans (Finset.sum_congr rfl fun c _ => ?_)
  rw [shapeCast_1ab_ab_apply]
  show broadcastTo S4096x64 v9 broadcasts_S4096x1_S4096x64 (ix2 n c) * acc (ix2 n c) * _ = _
  rw [Cert.LibCols.broadcastTo_a1_ab_apply]

section rows
variable (h : FVec Ideal S4096x64 .f32) (H : Fin 4096 → Fin 64 → EReal) (hh : ∀ n f, h (ix2 n f) = H n f)
include hh

theorem meanV_apply (n : Fin 4096) (u : Fin 1) : meanV h (ix2 n u) = mean cnt H n := by
  unfold meanV mean
  refine congrArg (fun s => Ideal.div s cnt) ?_
  refine (rowSumCol_apply h reduces_S4096x64_S4096 (.inl rfl) rfl shapeCasts_S4096_S4096x1 n u).trans (Finset.sum_congr rfl fun k _ => hh n k)

theorem cenV_apply (n : Fin 4096) (f : Fin 64) : cenV h (meanV h) (ix2 n f) = H n f - mean cnt H n := by
  show h (ix2 n f) - broadcastTo S4096x64 (meanV h) broadcasts_S4096x1_S4096x64 (ix2 n f) = _
  rw [Cert.LibCols.broadcastTo_a1_ab_apply, meanV_apply h H hh, hh]

theorem varV_apply (n : Fin 4096) (u : Fin 1) : varV h (meanV h) (ix2 n u) = var cnt H n := by
  unfold varV var
  refine congrArg (fun s => Ideal.div s cnt) ?_
  refine (rowSumCol_apply _ reduces_S4096x64_S4096 (.inl rfl) rfl shapeCasts_S4096_S4096x1 n u).trans (Finset.sum_congr rfl fun k _ => ?_)
  show cenV h (meanV h) (ix2 n k) * cenV h (meanV h) (ix2 n k) = _
  rw [cenV_apply h H hh]

theorem normV_apply (n : Fin 4096) (f : Fin 64) :
    max (normV h (meanV h) (varV h (meanV h)) (ix2 n f)) 0 = normK cnt eps H n f := by
  unfold normK
  show max (cenV h (meanV h) (ix2 n f)
      * broadcastTo S4096x64 (rsqrt (addf (varV h (meanV h)) (broadcast S4096x1 (Scalar.ofBits (F := Ideal) .f32 0x3727C5AC#32)))) broadcasts_S4096x1_S4096x64 (ix2 n f)) 0 = _
  rw [cenV_apply h H hh, Cert.LibCols.broadcastTo_a1_ab_apply]
  show max ((H n f - mean cnt H n) * Ideal.rsqrt (varV h (meanV h) (ix2 n (0 : Fin 1)) + eps)) 0 = _
  rw [varV_apply h H hh]

end rows

/-! ## The output block, entry by entry -/

theorem bodyOut_apply (x0 : Vec Ideal S1x4096x64 .f32) (x1 x2 : Vec Ideal S1x64x64 .f32) (n : Fin 4096) (f : Fin 64) :
    bodyOut x0 x1 x2 (ix3 (0 : Fin 1) n f)
      = netK thr cnt eps (fun n c => x0 (ix3 (0 : Fin 1) n c)) (fun c f => x1 (ix3 (0 : Fin 1) c f)) (fun c f => x2 (ix3 (0 : Fin 1) c f)) n f := by
  -- names for the rows of the three blocks
  generalize hX : (fun (n : Fin 4096) (c : Fin 64) => x0 (ix3 (0 : Fin 1) n c)) = X
  have hx : ∀ n c, x0 (ix3 (0 : Fin 1) n c) = X n c := fun n c => by rw [← hX]
  -- the reciprocal square roots of the degrees
  have hd : ∀ m, k0_pay6 (degs x0) (ix2 m (0 : Fin 1)) = Ideal.rsqrt (∑ k, adj thr X m k) := fun m => by
    show Ideal.rsqrt (degs x0 (ix2 m (0 : Fin 1))) = _
    rw [degs_apply x0 X hx]
  -- the scratch contents of the first sweep: the features scaled
  have hs1 : ∀ m c, k0_pay7 x0 (degs x0) (ix2 m c) = Ideal.rsqrt (∑ k, adj thr X m k) * X m c := fun m c => by
    show shapeCast S4096x64 (mulf (broadcastTo S4096x64 (k0_pay6 (degs x0)) broadcasts_S4096x1_S4096x64) (k0_pay2 x0)) shapeCasts_S4096x64_S4096x64 (ix2 m c) = _
    rw [shapeCast_self]
    show broadcastTo S4096x64 (k0_pay6 (degs x0)) broadcasts_S4096x1_S4096x64 (ix2 m c) * k0_pay2 x0 (ix2 m c) = _
    rw [Cert.LibCols.broadcastTo_a1_ab_apply, hd, pay2_apply x0 X hx]
  -- the first layer's pre-activation
  have hh1 : ∀ n f, hidden1 x0 x1 (ix2 n f) = proj (diffuseK (adj thr X) X) (fun c f => x1 (ix3 (0 : Fin 1) c f)) n f := fun n f => by
    unfold hidden1
    rw [pay10_eq, projV_apply]
    unfold proj diffuseK
    refine Finset.sum_congr rfl fun c _ => ?_
    rw [hd, lap1_apply x0 X hx]
    simp only [hs1]
  -- the scratch contents of the second sweep: the first layer's output scaled
  have hs2 : ∀ m c, scaled2 x0 x1 (ix2 m c)
      = Ideal.rsqrt (∑ k, adj thr X m k) * layerK (adj thr X) cnt eps X (fun c f => x1 (ix3 (0 : Fin 1) c f)) m c := fun m c => by
    unfold scaled2
    rw [pay11_eq, pay12_eq, pay13_eq, shapeCast_self]
    show broadcastTo S4096x64 (k0_pay6 (degs x0)) broadcasts_S4096x1_S4096x64 (ix2 m c)
      * max (normV (hidden1 x0 x1) (meanV (hidden1 x0 x1)) (varV (hidden1 x0 x1) (meanV (hidden1 x0 x1))) (ix2 m c)) (Ideal.ofBits .f32 0x00000000#32) = _
    rw [Cert.LibCols.broadcastTo_a1_ab_apply, hd, Ideal.ofBits_zero_f32, normV_apply (hidden1 x0 x1) _ hh1]
    rfl
  -- the output
  unfold bodyOut k0_pay1
  refine (shapeCast_ab_1ab_apply _ shapeCasts_S4096x64_S1x4096x64 (0 : Fin 1) n f).trans ?_
  show max (k0_pay16 (k0_pay6 (degs x0)) (lapAcc2 (k0_pay2 x0) (k0_pay3 x0) x0 (scaled2 x0 x1) k0_pay14 k0_t3_loop.trips) x2
      (ix2 n f)) (Ideal.ofBits .f32 0x00000000#32) = _
  rw [pay16_eq, Ideal.ofBits_zero_f32]
  have hh2 : ∀ n f, projV (k0_pay6 (degs x0)) (lapAcc2 (k0_pay2 x0) (k0_pay3 x0) x0 (scaled2 x0 x1) k0_pay14 k0_t3_loop.trips) x2 (ix2 n f)
      = proj (diffuseK (adj thr X) (layerK (adj thr X) cnt eps X (fun c f => x1 (ix3 (0 : Fin 1) c f)))) (fun c f => x2 (ix3 (0 : Fin 1) c f)) n f := fun n f => by
    rw [projV_apply]
    unfold proj diffuseK
    refine Finset.sum_congr rfl fun c _ => ?_
    rw [hd, lap2_apply x0 X hx]
    simp only [hs2]
  rw [normV_apply _ _ hh2]
  rfl

end Cert.KernelIdeal.Entry

end
-- ==== Proof.KernelWhole.lean ====
/-
  From one grid point's block to the whole output array.

  The grid has one point per batch entry. Point `t` stages batch `t`'s 4096 × 64 feature block and the two whole weight
  matrices, and writes its 4096 × 64 output block back as batch `t` of the result. The blocks of distinct points are
  distinct batches and together they are the whole array, so the array ends holding, at entry `(b, n, f)`, the two-layer
  network of batch `b`'s features (`outArray`).
-/
import proofs.«162762_j24618752540869_2_alg».proof.Proof.Gen.KernelIdeal.Value
import proofs.«162762_j24618752540869_2_alg».proof.Proof.KernelEntry
import Idealize.ShloMosaic.Lib.Pipeline.Value
import Idealize.ShloMosaic.Lib.StableHlo.Run

noncomputable section

namespace Cert.KernelIdeal.Whole

open Cert.KernelIdeal Cert.KernelIdeal.Gen Cert.KernelIdeal.Term Cert.KernelIdeal.Entry Cert.Diffusion
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The network at one entry, from the node features of every batch entry and the two weight matrices. -/
def outEntry (a1 : S4x4096x64.Idx → EReal) (w0 w1 : S1x64x64.Idx → EReal) (b : Fin 4) (n : Fin 4096) (f : Fin 64) : EReal :=
  netK thr cnt eps (fun n c => a1 (ix3 b n c)) (fun c f => w0 (ix3 (0 : Fin 1) c f)) (fun c f => w1 (ix3 (0 : Fin 1) c f)) n f

/-- What the output array ends holding. -/
def outArray (a1 : S4x4096x64.Idx → EReal) (w0 w1 : S1x64x64.Idx → EReal) : S4x4096x64.Idx → EReal :=
  fun i => outEntry a1 w0 w1 (i 0) (i 1) (i 2)

/-- One point's output block is the block of `outArray` at the batch entry its input block came from. -/
theorem block_eq (x0 : Vec Ideal S1x4096x64 .f32) (x1 x2 : Vec Ideal S1x64x64 .f32)
    (a1 : S4x4096x64.Idx → EReal) (w0 w1 : S1x64x64.Idx → EReal) (b : Fin 4)
    (h0 : ∀ n c, x0 (ix3 (0 : Fin 1) n c) = a1 (ix3 b n c)) (h1 : ∀ c f, x1 (ix3 (0 : Fin 1) c f) = w0 (ix3 (0 : Fin 1) c f))
    (h2 : ∀ c f, x2 (ix3 (0 : Fin 1) c f) = w1 (ix3 (0 : Fin 1) c f))
    (y : S1x4096x64.Idx) (i : S4x4096x64.Idx) (hi0 : (i 0).val = b.val) (hi1 : (i 1).val = (y 1).val) (hi2 : (i 2).val = (y 2).val) :
    bodyOut x0 x1 x2 y = outArray a1 w0 w1 i := by
  obtain ⟨u, n, f, rfl⟩ : ∃ (u : Fin 1) (n : Fin 4096) (f : Fin 64), y = ix3 u n f := ⟨y 0, y 1, y 2, eq_ix3 y⟩
  obtain ⟨b', n', f', rfl⟩ : ∃ (b' : Fin 4) (n' : Fin 4096) (f' : Fin 64), i = ix3 b' n' f' := ⟨i 0, i 1, i 2, eq_ix3 i⟩
  obtain rfl : b' = b := Fin.ext hi0
  obtain rfl : n' = n := Fin.ext hi1
  obtain rfl : f' = f := Fin.ext hi2
  obtain rfl : u = 0 := Subsingleton.elim _ _
  rw [bodyOut_apply]
  show _ = outEntry a1 w0 w1 b' n' f'
  unfold outEntry
  simp only [h0, h1, h2]

/-- The printed index maps over the four points: the feature window and the output window sit at batch `t`, the weight
    windows at the origin. -/
theorem idx_facts : ∀ t : Fin cfg0.N, win0_0.index t = ![t.val, 0, 0] ∧ win0_1.index t = ![0, 0, 0] ∧ win0_2.index t = ![0, 0, 0]
    ∧ win0_3.index t = ![t.val, 0, 0] ∧ t.val < 4 :=
  (by decide +kernel : ∀ t : Fin grid0.N, win0_0.index t = ![t.val, 0, 0] ∧ win0_1.index t = ![0, 0, 0] ∧ win0_2.index t = ![0, 0, 0]
    ∧ win0_3.index t = ![t.val, 0, 0] ∧ t.val < 4)

/-- Every batch entry is some point's. -/
theorem idx_onto : ∀ q : Fin 4, ∃ t : Fin cfg0.N, win0_3.index t = ![q.val, 0, 0] :=
  (by decide +kernel : ∀ q : Fin 4, ∃ t : Fin grid0.N, win0_3.index t = ![q.val, 0, 0])

/-- What point `t` writes back is block `t` of `outArray` of the arrays as the region finds them. -/
theorem flushed_eq (c : Dev nD) (t : Fin cfg0.N) :
    (dats m 0 c).flushed 3 t = ((cfg0.win 3).blk t).view.read (Elt Ideal) (outArray (V m c main_v1) (V m c main_arg1) (V m c main_arg2)) := by
  rw [Cert.KernelIdeal.Value.flushed3_A, out_eq]
  obtain ⟨e0, e1, e2, e3, e4⟩ := idx_facts t
  funext y
  show bodyOut (iblk m c 0 t) (iblk m c 1 t) (iblk m c 2 t) y
    = outArray (V m c main_v1) (V m c main_arg1) (V m c main_arg2) (((cfg0.win 3).blk t).view.emb y)
  refine block_eq _ _ _ _ _ _ ⟨t.val, e4⟩ ?_ ?_ ?_ y _ ?_ ?_ ?_
  · intro n ch
    show V m c main_v1 (((cfg0.win 0).blk t).view.emb (ix3 (0 : Fin 1) n ch)) = _
    refine congrArg (V m c main_v1) ?_
    funext a; apply Fin.ext
    match a with
    | ⟨0, _⟩ => show win0_0.index t (0 : Fin 3) * 1 + 1 * 0 = t.val; rw [e0]; show t.val * 1 + 1 * 0 = t.val; omega
    | ⟨1, _⟩ => show win0_0.index t (1 : Fin 3) * 4096 + 1 * n.val = n.val; rw [e0]; show 0 * 4096 + 1 * n.val = n.val; omega
    | ⟨2, _⟩ => show win0_0.index t (2 : Fin 3) * 64 + 1 * ch.val = ch.val; rw [e0]; show 0 * 64 + 1 * ch.val = ch.val; omega
  · intro ch f
    show V m c main_arg1 (((cfg0.win 1).blk t).view.emb (ix3 (0 : Fin 1) ch f)) = _
    refine congrArg (V m c main_arg1) ?_
    funext a; apply Fin.ext
    match a with
    | ⟨0, _⟩ => show win0_1.index t (0 : Fin 3) * 1 + 1 * 0 = 0; rw [e1]; rfl
    | ⟨1, _⟩ => show win0_1.index t (1 : Fin 3) * 64 + 1 * ch.val = ch.val; rw [e1]; show 0 * 64 + 1 * ch.val = ch.val; omega
    | ⟨2, _⟩ => show win0_1.index t (2 : Fin 3) * 64 + 1 * f.val = f.val; rw [e1]; show 0 * 64 + 1 * f.val = f.val; omega
  · intro ch f
    show V m c main_arg2 (((cfg0.win 2).blk t).view.emb (ix3 (0 : Fin 1) ch f)) = _
    refine congrArg (V m c main_arg2) ?_
    funext a; apply Fin.ext
    match a with
    | ⟨0, _⟩ => show win0_2.index t (0 : Fin 3) * 1 + 1 * 0 = 0; rw [e2]; rfl
    | ⟨1, _⟩ => show win0_2.index t (1 : Fin 3) * 64 + 1 * ch.val = ch.val; rw [e2]; show 0 * 64 + 1 * ch.val = ch.val; omega
    | ⟨2, _⟩ => show win0_2.index t (2 : Fin 3) * 64 + 1 * f.val = f.val; rw [e2]; show 0 * 64 + 1 * f.val = f.val; omega
  · show win0_3.index t (0 : Fin 3) * 1 + 1 * (y 0).val = t.val
    have hy : (y 0).val < 1 := (y 0).isLt
    rw [e3]; show t.val * 1 + 1 * (y 0).val = t.val; omega
  · show win0_3.index t (1 : Fin 3) * 4096 + 1 * (y 1).val = (y 1).val
    rw [e3]; show 0 * 4096 + 1 * (y 1).val = (y 1).val; omega
  · show win0_3.index t (2 : Fin 3) * 64 + 1 * (y 2).val = (y 2).val
    rw [e3]; show 0 * 64 + 1 * (y 2).val = (y 2).val; omega

/-- An index of the array is in point `t`'s block iff each coordinate is in the block's range on its axis. -/
theorem mem_blk (t : Fin cfg0.N) (i : S4x4096x64.Idx) :
    i ∈ ((cfg0.win 3).blk t).view.set ↔ ∀ a : Fin 3, win0_3.index t a * S1x4096x64.size a ≤ (i a).val ∧ (i a).val < win0_3.index t a * S1x4096x64.size a + S1x4096x64.size a := by
  show i ∈ ((View.whole main_v2).slice (win0_3.rect t)).set ↔ _
  rw [View.set_slice_whole, Rect.mem_set_unit]
  exact Iff.rfl

/-- Every index of the array is in some point's block. -/
theorem cover (i : S4x4096x64.Idx) : ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 64 := (i 2).isLt
  obtain ⟨t, ht⟩ := idx_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 64 ≤ (i 2).val ∧ (i 2).val < win0_3.index t (2 : Fin 3) * 64 + 64; omega

/-- The output array after the run. -/
theorem final (c : Dev nD) :
    (dats m 0 c).arrAt 3 cfg0.N = outArray (V m c main_v1) (V m c main_arg1) (V m c main_arg2) :=
  (dats m 0 c).arrAt_eq_of_cover 3 _ (fun t _ => flushed_eq m c t) cover

/-- The node features the region finds: the input reshaped and transposed by the two host operations before it. -/
theorem V_main_v1 (c : Dev nD) :
    (V m c main_v1 : S4x4096x64.Idx → EReal)
      = transpose S4x4096x64 [0, 2, 1] (shapeCast S4x64x4096 (m ((c : Thread nD τ).loc main_arg0)) shapeCasts_S4x64x64x64_S4x64x4096) transposes_S4x64x4096_S4x4096x64_0_2_1 := by
  dsimp only [Gen.V, Gen.hostOps0]
  after_results
  rfl

/-- The kernel's run, with the result array named as a function of the argument arrays. -/
theorem run : θ_run defs (onTc (τ := τ) (main (F := Ideal))) ⟨m, fun _ => 0, ρ⟩ fun r => ∀ c : Dev nD,
      r.2.mem ((c : Thread nD τ).loc main_v2)
          = outArray (transpose S4x4096x64 [0, 2, 1] (shapeCast S4x64x4096 (m ((c : Thread nD τ).loc main_arg0)) shapeCasts_S4x64x64x64_S4x64x4096) transposes_S4x64x4096_S4x4096x64_0_2_1)
              (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by rw [V_main_v1, V_main_arg1, V_main_arg2])), (h c).2⟩)
    (Cert.KernelIdeal.Value.run_blocks m ρ)

end Cert.KernelIdeal.Whole

end
-- ==== Proof.RefEntry.lean ====
/-
  The reference program read entry by entry on the extended reals.

  Its operations are read one at a time (the generated read-at-an-index lemmas) and gathered into the quantities of
  `Cert.Diffusion`: a row's norm, the cosine similarity of two rows, the 0/1 adjacency, a row's degree and its
  `1 / sqrt`, the normalised adjacency's entries, and for each of the two layers the diffusion, the projection, the
  row mean, the row variance and the rectified quotient. The result at entry `(b, n, f)` is `netR` of batch `b`'s features
  and the two weight matrices.
-/
import proofs.«162762_j24618752540869_2_alg».proof.Proof.RefRead
import proofs.«162762_j24618752540869_2_alg».proof.Proof.Diffusion
import Idealize.ShloMosaic.Lib.ValueIdx
import Idealize.ShloMosaic.PureOps.Ideal.Laws

noncomputable section

namespace Cert.ReferenceIdeal.Entry

open Cert.ReferenceIdeal Cert.ReferenceIdeal.ReadP Cert.Diffusion
open Idealize.ShloMosaic Idealize.ShloMosaic.ValueIdx

/-- The threshold of the similarity, the row length as a float, and the variance's epsilon, as the program spells them. -/
abbrev thr : EReal := Ideal.ofBits .f32 0x3BA3D70A#32
abbrev cnt : EReal := Ideal.ofBits .f32 0x42800000#32
abbrev eps : EReal := Ideal.ofBits .f32 0x3727C5AC#32

/-- Batch `b`'s node features: the input with its pixels laid out as nodes. -/
def feat (x0 : (⟨S4x64x64x64, .f32⟩ : BufTy).Contents (Elt Ideal)) (b : Fin 4) (n : Fin 4096) (c : Fin 64) : EReal := val_main_v1 (F := Ideal) x0 (ix3 b n c)
/-- A weight matrix. -/
def wmat (x : (⟨S1x64x64, .f32⟩ : BufTy).Contents (Elt Ideal)) (c f : Fin 64) : EReal := x (ix3 (0 : Fin 1) c f)

/-! ## The operations' index maps at coordinates -/

theorem i_v4 (b : Fin 4) (n : Fin 4096) (u : Fin 1) : idx_main_v4 (ix3 b n u) = ix2 b n := funext fun a => Fin.ext (by match a with | ⟨0, _⟩ => rfl | ⟨1, _⟩ => rfl)
theorem i_v19 (b : Fin 4) (n : Fin 4096) (u : Fin 1) : idx_main_v19 (ix3 b n u) = ix2 b n := funext fun a => Fin.ext (by match a with | ⟨0, _⟩ => rfl | ⟨1, _⟩ => rfl)
theorem i_v29 (b : Fin 4) (n : Fin 4096) (u : Fin 1) : idx_main_v29 (ix3 b n u) = ix2 b n := funext fun a => Fin.ext (by match a with | ⟨0, _⟩ => rfl | ⟨1, _⟩ => rfl)
theorem i_v36 (b : Fin 4) (n : Fin 4096) (u : Fin 1) : idx_main_v36 (ix3 b n u) = ix2 b n := funext fun a => Fin.ext (by match a with | ⟨0, _⟩ => rfl | ⟨1, _⟩ => rfl)
theorem i_v51 (b : Fin 4) (n : Fin 4096) (u : Fin 1) : idx_main_v51 (ix3 b n u) = ix2 b n := funext fun a => Fin.ext (by match a with | ⟨0, _⟩ => rfl | ⟨1, _⟩ => rfl)
theorem i_v58 (b : Fin 4) (n : Fin 4096) (u : Fin 1) : idx_main_v58 (ix3 b n u) = ix2 b n := funext fun a => Fin.ext (by match a with | ⟨0, _⟩ => rfl | ⟨1, _⟩ => rfl)
theorem i_v3 (b : Fin 4) (n : Fin 4096) (k : Fin 64) : idx_main_v3 (ix2 b n) k = ix3 b n k := funext fun a => Fin.ext (by match a with | ⟨0, _⟩ => rfl | ⟨1, _⟩ => rfl | ⟨2, _⟩ => rfl)
theorem i_v28 (b : Fin 4) (n : Fin 4096) (k : Fin 64) : idx_main_v28 (ix2 b n) k = ix3 b n k := funext fun a => Fin.ext (by match a with | ⟨0, _⟩ => rfl | ⟨1, _⟩ => rfl | ⟨2, _⟩ => rfl)
theorem i_v35 (b : Fin 4) (n : Fin 4096) (k : Fin 64) : idx_main_v35 (ix2 b n) k = ix3 b n k := funext fun a => Fin.ext (by match a with | ⟨0, _⟩ => rfl | ⟨1, _⟩ => rfl | ⟨2, _⟩ => rfl)
theorem i_v50 (b : Fin 4) (n : Fin 4096) (k : Fin 64) : idx_main_v50 (ix2 b n) k = ix3 b n k := funext fun a => Fin.ext (by match a with | ⟨0, _⟩ => rfl | ⟨1, _⟩ => rfl | ⟨2, _⟩ => rfl)
theorem i_v57 (b : Fin 4) (n : Fin 4096) (k : Fin 64) : idx_main_v57 (ix2 b n) k = ix3 b n k := funext fun a => Fin.ext (by match a with | ⟨0, _⟩ => rfl | ⟨1, _⟩ => rfl | ⟨2, _⟩ => rfl)
theorem i_v15 (b : Fin 4) (n : Fin 4096) (k : Fin 4096) : idx_main_v15 (ix2 b n) k = ix3 b n k := funext fun a => Fin.ext (by match a with | ⟨0, _⟩ => rfl | ⟨1, _⟩ => rfl | ⟨2, _⟩ => rfl)
theorem il_v6 (b : Fin 4) (n m : Fin 4096) (k : Fin 64) : lidx_main_v6 (ix3 b n m) k = ix3 b n k := funext fun a => Fin.ext (by match a with | ⟨0, _⟩ => rfl | ⟨1, _⟩ => rfl | ⟨2, _⟩ => rfl)
theorem ir_v6 (b : Fin 4) (n m : Fin 4096) (k : Fin 64) : ridx_main_v6 (ix3 b n m) k = ix3 b m k := funext fun a => Fin.ext (by match a with | ⟨0, _⟩ => rfl | ⟨1, _⟩ => rfl | ⟨2, _⟩ => rfl)
theorem i_v7 (b : Fin 4) (u : Fin 1) (m : Fin 4096) : idx_main_v7 (ix3 b u m) = ix3 b m u := funext fun a => Fin.ext (by match a with | ⟨0, _⟩ => rfl | ⟨1, _⟩ => rfl | ⟨2, _⟩ => rfl)
theorem i_v8 (b : Fin 4) (n m : Fin 4096) : idx_main_v8 (ix3 b n m) = ix3 b n (0 : Fin 1) := funext fun a => Fin.ext (by match a with | ⟨0, _⟩ => rfl | ⟨1, _⟩ => rfl | ⟨2, _⟩ => rfl)
theorem i_v20 (b : Fin 4) (n m : Fin 4096) : idx_main_v20 (ix3 b n m) = ix3 b n (0 : Fin 1) := funext fun a => Fin.ext (by match a with | ⟨0, _⟩ => rfl | ⟨1, _⟩ => rfl | ⟨2, _⟩ => rfl)
theorem i_v9 (b : Fin 4) (n m : Fin 4096) : idx_main_v9 (ix3 b n m) = ix3 b (0 : Fin 1) m := funext fun a => Fin.ext (by match a with | ⟨0, _⟩ => rfl | ⟨1, _⟩ => rfl | ⟨2, _⟩ => rfl)
theorem i_v23 (b : Fin 4) (n m : Fin 4096) : idx_main_v23 (ix3 b n m) = ix3 b (0 : Fin 1) m := funext fun a => Fin.ext (by match a with | ⟨0, _⟩ => rfl | ⟨1, _⟩ => rfl | ⟨2, _⟩ => rfl)
theorem i_v22 (b : Fin 4) (u : Fin 1) (m : Fin 4096) : idx_main_v22 (ix3 b u m) = ix2 b m := funext fun a => Fin.ext (by match a with | ⟨0, _⟩ => rfl | ⟨1, _⟩ => rfl)
theorem il_v25 (b : Fin 4) (n : Fin 4096) (c : Fin 64) (k : Fin 4096) : lidx_main_v25 (ix3 b n c) k = ix3 b n k := funext fun a => Fin.ext (by match a with | ⟨0, _⟩ => rfl | ⟨1, _⟩ => rfl | ⟨2, _⟩ => rfl)
theorem ir_v25 (b : Fin 4) (n : Fin 4096) (c : Fin 64) (k : Fin 4096) : ridx_main_v25 (ix3 b n c) k = ix3 b k c := funext fun a => Fin.ext (by match a with | ⟨0, _⟩ => rfl | ⟨1, _⟩ => rfl | ⟨2, _⟩ => rfl)
theorem il_v47 (b : Fin 4) (n : Fin 4096) (c : Fin 64) (k : Fin 4096) : lidx_main_v47 (ix3 b n c) k = ix3 b n k := funext fun a => Fin.ext (by match a with | ⟨0, _⟩ => rfl | ⟨1, _⟩ => rfl | ⟨2, _⟩ => rfl)
theorem ir_v47 (b : Fin 4) (n : Fin 4096) (c : Fin 64) (k : Fin 4096) : ridx_main_v47 (ix3 b n c) k = ix3 b k c := funext fun a => Fin.ext (by match a with | ⟨0, _⟩ => rfl | ⟨1, _⟩ => rfl | ⟨2, _⟩ => rfl)
theorem il_v27 (b : Fin 4) (n : Fin 4096) (f : Fin 64) (k : Fin 64) : lidx_main_v27 (ix3 b n f) k = ix3 b n k := funext fun a => Fin.ext (by match a with | ⟨0, _⟩ => rfl | ⟨1, _⟩ => rfl | ⟨2, _⟩ => rfl)
theorem ir_v27 (b : Fin 4) (n : Fin 4096) (f : Fin 64) (k : Fin 64) : ridx_main_v27 (ix3 b n f) k = ix2 k f := funext fun a => Fin.ext (by match a with | ⟨0, _⟩ => rfl | ⟨1, _⟩ => rfl)
theorem il_v49 (b : Fin 4) (n : Fin 4096) (f : Fin 64) (k : Fin 64) : lidx_main_v49 (ix3 b n f) k = ix3 b n k := funext fun a => Fin.ext (by match a with | ⟨0, _⟩ => rfl | ⟨1, _⟩ => rfl | ⟨2, _⟩ => rfl)
theorem ir_v49 (b : Fin 4) (n : Fin 4096) (f : Fin 64) (k : Fin 64) : ridx_main_v49 (ix3 b n f) k = ix2 k f := funext fun a => Fin.ext (by match a with | ⟨0, _⟩ => rfl | ⟨1, _⟩ => rfl)
theorem i_v26 (c f : Fin 64) : idx_main_v26 (ix2 c f) = ix3 (0 : Fin 1) c f :=
  funext fun a => Fin.ext (by
    have hc : c.val < 64 := c.isLt
    have hf : f.val < 64 := f.isLt
    match a with
    | ⟨0, _⟩ => rfl
    | ⟨1, _⟩ => show (c.val * 64 + f.val) / 64 % 64 = c.val; omega
    | ⟨2, _⟩ => show (c.val * 64 + f.val) % 64 = f.val; omega)
theorem i_v48 (c f : Fin 64) : idx_main_v48 (ix2 c f) = ix3 (0 : Fin 1) c f :=
  funext fun a => Fin.ext (by
    have hc : c.val < 64 := c.isLt
    have hf : f.val < 64 := f.isLt
    match a with
    | ⟨0, _⟩ => rfl
    | ⟨1, _⟩ => show (c.val * 64 + f.val) / 64 % 64 = c.val; omega
    | ⟨2, _⟩ => show (c.val * 64 + f.val) % 64 = f.val; omega)
theorem i_v32 (b : Fin 4) (n : Fin 4096) (f : Fin 64) : idx_main_v32 (ix3 b n f) = ix3 b n (0 : Fin 1) := funext fun a => Fin.ext (by match a with | ⟨0, _⟩ => rfl | ⟨1, _⟩ => rfl | ⟨2, _⟩ => rfl)
theorem i_v39 (b : Fin 4) (n : Fin 4096) (f : Fin 64) : idx_main_v39 (ix3 b n f) = ix3 b n (0 : Fin 1) := funext fun a => Fin.ext (by match a with | ⟨0, _⟩ => rfl | ⟨1, _⟩ => rfl | ⟨2, _⟩ => rfl)
theorem i_v44 (b : Fin 4) (n : Fin 4096) (f : Fin 64) : idx_main_v44 (ix3 b n f) = ix3 b n (0 : Fin 1) := funext fun a => Fin.ext (by match a with | ⟨0, _⟩ => rfl | ⟨1, _⟩ => rfl | ⟨2, _⟩ => rfl)
theorem i_v54 (b : Fin 4) (n : Fin 4096) (f : Fin 64) : idx_main_v54 (ix3 b n f) = ix3 b n (0 : Fin 1) := funext fun a => Fin.ext (by match a with | ⟨0, _⟩ => rfl | ⟨1, _⟩ => rfl | ⟨2, _⟩ => rfl)
theorem i_v61 (b : Fin 4) (n : Fin 4096) (f : Fin 64) : idx_main_v61 (ix3 b n f) = ix3 b n (0 : Fin 1) := funext fun a => Fin.ext (by match a with | ⟨0, _⟩ => rfl | ⟨1, _⟩ => rfl | ⟨2, _⟩ => rfl)
theorem i_v66 (b : Fin 4) (n : Fin 4096) (f : Fin 64) : idx_main_v66 (ix3 b n f) = ix3 b n (0 : Fin 1) := funext fun a => Fin.ext (by match a with | ⟨0, _⟩ => rfl | ⟨1, _⟩ => rfl | ⟨2, _⟩ => rfl)

/-! ## The adjacency and its normalisation -/

theorem one_bits : Ideal.ofBits .f32 0x3F800000#32 = 1 := by
  simp [Ideal.ofBits, Ideal.ieee, -EReal.coe_mul]; norm_num

/-- A comparison's bit read as an unsigned integer is one or zero. -/
theorem bit_uitofp (p : Prop) [Decidable p] :
    FloatOps.uitofp (F := Ideal) .f32 (BitVec.ofBool (decide p)) = if p then (1 : EReal) else 0 := by
  show ((((BitVec.ofBool (decide p)).toNat : ℕ) : ℝ) : EReal) = _
  by_cases hp : p
  · simp [hp]
  · simp [hp]

variable (x0 : (⟨S4x64x64x64, .f32⟩ : BufTy).Contents (Elt Ideal))

theorem r_v3 (b : Fin 4) (n : Fin 4096) :
    val_main_v3 (F := Ideal) x0 (ix2 b n) = ∑ k : Fin 64, feat x0 b n k * feat x0 b n k := by
  rw [val_main_v3_apply]
  refine (congrArg (· + _) Ideal.ofBits_zero_f32).trans ((zero_add _).trans ?_)
  refine Finset.sum_congr rfl fun k _ => ?_
  rw [i_v3]; rfl

theorem r_v5 (b : Fin 4) (n : Fin 4096) (u : Fin 1) : val_main_v5 (F := Ideal) x0 (ix3 b n u) = nrm (feat x0 b) n := by
  show Ideal.sqrt (val_main_v4 (F := Ideal) x0 (ix3 b n u)) = _
  rw [val_main_v4_apply, i_v4, r_v3]; rfl

theorem r_v6 (b : Fin 4) (n m : Fin 4096) :
    val_main_v6 (F := Ideal) x0 (ix3 b n m) = ∑ k : Fin 64, feat x0 b n k * feat x0 b m k := by
  rw [val_main_v6_apply]
  refine Finset.sum_congr rfl fun k _ => ?_
  rw [il_v6, ir_v6]; rfl

theorem r_v11 (b : Fin 4) (n m : Fin 4096) : val_main_v11 (F := Ideal) x0 (ix3 b n m) = corr (feat x0 b) n m := by
  show Ideal.div (val_main_v6 (F := Ideal) x0 (ix3 b n m))
    (val_main_v8 (F := Ideal) x0 (ix3 b n m) * val_main_v9 (F := Ideal) x0 (ix3 b n m)) = _
  rw [r_v6, val_main_v8_apply, i_v8, r_v5, val_main_v9_apply, i_v9, val_main_v7_apply, i_v7, r_v5]; rfl

theorem r_v14 (b : Fin 4) (n m : Fin 4096) : val_main_v14 (F := Ideal) x0 (ix3 b n m) = adj thr (feat x0 b) n m := by
  show FloatOps.uitofp (F := Ideal) .f32 (Ideal.cmp .ogt (val_main_v11 (F := Ideal) x0 (ix3 b n m)) (Ideal.ofBits .f32 0x3BA3D70A#32)) = _
  rw [r_v11]
  exact bit_uitofp _

theorem r_v15 (b : Fin 4) (n : Fin 4096) :
    val_main_v15 (F := Ideal) x0 (ix2 b n) = ∑ m, adj thr (feat x0 b) n m := by
  rw [val_main_v15_apply]
  refine (congrArg (· + _) Ideal.ofBits_zero_f32).trans ((zero_add _).trans ?_)
  refine Finset.sum_congr rfl fun k _ => ?_
  rw [i_v15, r_v14]

theorem r_v18 (b : Fin 4) (n : Fin 4096) :
    val_main_v18 (F := Ideal) x0 (ix2 b n) = Ideal.div 1 (Ideal.sqrt (∑ m, adj thr (feat x0 b) n m)) := by
  show Ideal.div (Ideal.ofBits .f32 0x3F800000#32) (Ideal.sqrt (val_main_v15 (F := Ideal) x0 (ix2 b n))) = _
  rw [r_v15, one_bits]

theorem r_v24 (b : Fin 4) (n m : Fin 4096) :
    val_main_v24 (F := Ideal) x0 (ix3 b n m)
      = (adj thr (feat x0 b) n m * Ideal.div 1 (Ideal.sqrt (∑ k, adj thr (feat x0 b) n k)))
          * Ideal.div 1 (Ideal.sqrt (∑ k, adj thr (feat x0 b) m k)) := by
  show (val_main_v14 (F := Ideal) x0 (ix3 b n m) * val_main_v20 (F := Ideal) x0 (ix3 b n m)) * val_main_v23 (F := Ideal) x0 (ix3 b n m) = _
  rw [r_v14, val_main_v20_apply, i_v20, val_main_v19_apply, i_v19, r_v18, val_main_v23_apply, i_v23, val_main_v22_apply, i_v22, r_v18]

/-! ### The first layer -/

theorem r_v26 (x1 : (⟨S1x64x64, .f32⟩ : BufTy).Contents (Elt Ideal)) (c f : Fin 64) : val_main_v26 (F := Ideal) x1 (ix2 c f) = wmat x1 c f := by
  rw [val_main_v26_apply, i_v26]; rfl

/-- The diffusion step: the normalised adjacency against the layer's input. -/
theorem r_v25 (x0 : (⟨S4x64x64x64, .f32⟩ : BufTy).Contents (Elt Ideal)) (x1 : (⟨S1x64x64, .f32⟩ : BufTy).Contents (Elt Ideal)) (Vin : Fin 4 → Fin 4096 → Fin 64 → EReal) (hin : ∀ b m c, val_main_v1 (F := Ideal) x0 (ix3 b m c) = Vin b m c)
    (b : Fin 4) (n : Fin 4096) (c : Fin 64) :
    val_main_v25 (F := Ideal) x0 (ix3 b n c) = diffuseR (adj thr (feat x0 b)) (Vin b) n c := by
  rw [val_main_v25_apply]
  unfold diffuseR
  refine Finset.sum_congr rfl fun k _ => ?_
  rw [il_v25, ir_v25, r_v24, hin]

/-- The projection by the layer's weights. -/
theorem r_v27 (x0 : (⟨S4x64x64x64, .f32⟩ : BufTy).Contents (Elt Ideal)) (x1 : (⟨S1x64x64, .f32⟩ : BufTy).Contents (Elt Ideal)) (Vin : Fin 4 → Fin 4096 → Fin 64 → EReal) (hin : ∀ b m c, val_main_v1 (F := Ideal) x0 (ix3 b m c) = Vin b m c)
    (b : Fin 4) (n : Fin 4096) (f : Fin 64) :
    val_main_v27 (F := Ideal) x0 x1 (ix3 b n f) = proj (diffuseR (adj thr (feat x0 b)) (Vin b)) (wmat x1) n f := by
  rw [val_main_v27_apply]
  unfold proj
  refine Finset.sum_congr rfl fun k _ => ?_
  rw [il_v27, ir_v27, r_v25 x0 x1 Vin hin, r_v26]

section
variable (x0 : (⟨S4x64x64x64, .f32⟩ : BufTy).Contents (Elt Ideal)) (x1 : (⟨S1x64x64, .f32⟩ : BufTy).Contents (Elt Ideal)) (H : Fin 4 → Fin 4096 → Fin 64 → EReal) (hh : ∀ b n f, val_main_v27 (F := Ideal) x0 x1 (ix3 b n f) = H b n f)
include hh

theorem r_v31 (b : Fin 4) (n : Fin 4096) (u : Fin 1) :
    val_main_v31 (F := Ideal) x0 x1 (ix3 b n u) = mean cnt (H b) n := by
  show Ideal.div (val_main_v29 (F := Ideal) x0 x1 (ix3 b n u)) (Ideal.ofBits .f32 0x42800000#32) = _
  rw [val_main_v29_apply, i_v29, val_main_v28_apply]
  unfold mean
  refine congrArg (fun s => Ideal.div s cnt) ?_
  refine (congrArg (· + _) Ideal.ofBits_zero_f32).trans ((zero_add _).trans ?_)
  refine Finset.sum_congr rfl fun k _ => ?_
  rw [i_v28, hh]

theorem r_v33 (b : Fin 4) (n : Fin 4096) (f : Fin 64) :
    val_main_v33 (F := Ideal) x0 x1 (ix3 b n f) = H b n f - mean cnt (H b) n := by
  show val_main_v27 (F := Ideal) x0 x1 (ix3 b n f) - val_main_v32 (F := Ideal) x0 x1 (ix3 b n f) = _
  rw [hh, val_main_v32_apply, i_v32, r_v31 x0 x1 H hh]

theorem r_v38 (b : Fin 4) (n : Fin 4096) (u : Fin 1) :
    val_main_v38 (F := Ideal) x0 x1 (ix3 b n u) = var cnt (H b) n := by
  show Ideal.div (val_main_v36 (F := Ideal) x0 x1 (ix3 b n u)) (Ideal.ofBits .f32 0x42800000#32) = _
  rw [val_main_v36_apply, i_v36, val_main_v35_apply]
  unfold var
  refine congrArg (fun s => Ideal.div s cnt) ?_
  refine (congrArg (· + _) Ideal.ofBits_zero_f32).trans ((zero_add _).trans ?_)
  refine Finset.sum_congr rfl fun k _ => ?_
  rw [i_v35]
  show val_main_v33 (F := Ideal) x0 x1 (ix3 b n k) * val_main_v33 (F := Ideal) x0 x1 (ix3 b n k) = _
  rw [r_v33 x0 x1 H hh]

theorem r_v46 (b : Fin 4) (n : Fin 4096) (f : Fin 64) :
    val_main_v46 (F := Ideal) x0 x1 (ix3 b n f) = normR cnt eps (H b) n f := by
  show max (Ideal.div (val_main_v27 (F := Ideal) x0 x1 (ix3 b n f) - val_main_v39 (F := Ideal) x0 x1 (ix3 b n f))
      (val_main_v44 (F := Ideal) x0 x1 (ix3 b n f))) (Ideal.ofBits .f32 0x00000000#32) = _
  rw [hh, val_main_v39_apply, i_v39, r_v31 x0 x1 H hh, val_main_v44_apply, i_v44]
  show max (Ideal.div (H b n f - mean cnt (H b) n)
      (Ideal.sqrt (val_main_v38 (F := Ideal) x0 x1 (ix3 b n (0 : Fin 1)) + Ideal.ofBits .f32 0x3727C5AC#32))) (Ideal.ofBits .f32 0x00000000#32) = _
  rw [r_v38 x0 x1 H hh, Ideal.ofBits_zero_f32]
  rfl

end

/-! ### The second layer -/

theorem r_v48 (x2 : (⟨S1x64x64, .f32⟩ : BufTy).Contents (Elt Ideal)) (c f : Fin 64) : val_main_v48 (F := Ideal) x2 (ix2 c f) = wmat x2 c f := by
  rw [val_main_v48_apply, i_v48]; rfl

/-- The diffusion step: the normalised adjacency against the layer's input. -/
theorem r_v47 (x0 : (⟨S4x64x64x64, .f32⟩ : BufTy).Contents (Elt Ideal)) (x1 x2 : (⟨S1x64x64, .f32⟩ : BufTy).Contents (Elt Ideal)) (Vin : Fin 4 → Fin 4096 → Fin 64 → EReal) (hin : ∀ b m c, val_main_v46 (F := Ideal) x0 x1 (ix3 b m c) = Vin b m c)
    (b : Fin 4) (n : Fin 4096) (c : Fin 64) :
    val_main_v47 (F := Ideal) x0 x1 (ix3 b n c) = diffuseR (adj thr (feat x0 b)) (Vin b) n c := by
  rw [val_main_v47_apply]
  unfold diffuseR
  refine Finset.sum_congr rfl fun k _ => ?_
  rw [il_v47, ir_v47, r_v24, hin]

/-- The projection by the layer's weights. -/
theorem r_v49 (x0 : (⟨S4x64x64x64, .f32⟩ : BufTy).Contents (Elt Ideal)) (x1 x2 : (⟨S1x64x64, .f32⟩ : BufTy).Contents (Elt Ideal)) (Vin : Fin 4 → Fin 4096 → Fin 64 → EReal) (hin : ∀ b m c, val_main_v46 (F := Ideal) x0 x1 (ix3 b m c) = Vin b m c)
    (b : Fin 4) (n : Fin 4096) (f : Fin 64) :
    val_main_v49 (F := Ideal) x0 x1 x2 (ix3 b n f) = proj (diffuseR (adj thr (feat x0 b)) (Vin b)) (wmat x2) n f := by
  rw [val_main_v49_apply]
  unfold proj
  refine Finset.sum_congr rfl fun k _ => ?_
  rw [il_v49, ir_v49, r_v47 x0 x1 x2 Vin hin, r_v48]

section
variable (x0 : (⟨S4x64x64x64, .f32⟩ : BufTy).Contents (Elt Ideal)) (x1 x2 : (⟨S1x64x64, .f32⟩ : BufTy).Contents (Elt Ideal)) (H : Fin 4 → Fin 4096 → Fin 64 → EReal) (hh : ∀ b n f, val_main_v49 (F := Ideal) x0 x1 x2 (ix3 b n f) = H b n f)
include hh

theorem r_v53 (b : Fin 4) (n : Fin 4096) (u : Fin 1) :
    val_main_v53 (F := Ideal) x0 x1 x2 (ix3 b n u) = mean cnt (H b) n := by
  show Ideal.div (val_main_v51 (F := Ideal) x0 x1 x2 (ix3 b n u)) (Ideal.ofBits .f32 0x42800000#32) = _
  rw [val_main_v51_apply, i_v51, val_main_v50_apply]
  unfold mean
  refine congrArg (fun s => Ideal.div s cnt) ?_
  refine (congrArg (· + _) Ideal.ofBits_zero_f32).trans ((zero_add _).trans ?_)
  refine Finset.sum_congr rfl fun k _ => ?_
  rw [i_v50, hh]

theorem r_v55 (b : Fin 4) (n : Fin 4096) (f : Fin 64) :
    val_main_v55 (F := Ideal) x0 x1 x2 (ix3 b n f) = H b n f - mean cnt (H b) n := by
  show val_main_v49 (F := Ideal) x0 x1 x2 (ix3 b n f) - val_main_v54 (F := Ideal) x0 x1 x2 (ix3 b n f) = _
  rw [hh, val_main_v54_apply, i_v54, r_v53 x0 x1 x2 H hh]

theorem r_v60 (b : Fin 4) (n : Fin 4096) (u : Fin 1) :
    val_main_v60 (F := Ideal) x0 x1 x2 (ix3 b n u) = var cnt (H b) n := by
  show Ideal.div (val_main_v58 (F := Ideal) x0 x1 x2 (ix3 b n u)) (Ideal.ofBits .f32 0x42800000#32) = _
  rw [val_main_v58_apply, i_v58, val_main_v57_apply]
  unfold var
  refine congrArg (fun s => Ideal.div s cnt) ?_
  refine (congrArg (· + _) Ideal.ofBits_zero_f32).trans ((zero_add _).trans ?_)
  refine Finset.sum_congr rfl fun k _ => ?_
  rw [i_v57]
  show val_main_v55 (F := Ideal) x0 x1 x2 (ix3 b n k) * val_main_v55 (F := Ideal) x0 x1 x2 (ix3 b n k) = _
  rw [r_v55 x0 x1 x2 H hh]

theorem r_v68 (b : Fin 4) (n : Fin 4096) (f : Fin 64) :
    val_main_v68 (F := Ideal) x0 x1 x2 (ix3 b n f) = normR cnt eps (H b) n f := by
  show max (Ideal.div (val_main_v49 (F := Ideal) x0 x1 x2 (ix3 b n f) - val_main_v61 (F := Ideal) x0 x1 x2 (ix3 b n f))
      (val_main_v66 (F := Ideal) x0 x1 x2 (ix3 b n f))) (Ideal.ofBits .f32 0x00000000#32) = _
  rw [hh, val_main_v61_apply, i_v61, r_v53 x0 x1 x2 H hh, val_main_v66_apply, i_v66]
  show max (Ideal.div (H b n f - mean cnt (H b) n)
      (Ideal.sqrt (val_main_v60 (F := Ideal) x0 x1 x2 (ix3 b n (0 : Fin 1)) + Ideal.ofBits .f32 0x3727C5AC#32))) (Ideal.ofBits .f32 0x00000000#32) = _
  rw [r_v60 x0 x1 x2 H hh, Ideal.ofBits_zero_f32]
  rfl

end

/-! ## The result -/

/-- The reference's result at entry `(b, n, f)`: two layers, in the reference's arrangement, over batch `b`'s features. -/
theorem result_apply (x0 : (⟨S4x64x64x64, .f32⟩ : BufTy).Contents (Elt Ideal)) (x1 x2 : (⟨S1x64x64, .f32⟩ : BufTy).Contents (Elt Ideal)) (b : Fin 4) (n : Fin 4096) (f : Fin 64) :
    val_main_v68 (F := Ideal) x0 x1 x2 (ix3 b n f) = netR thr cnt eps (feat x0 b) (wmat x1) (wmat x2) n f := by
  have h1 : ∀ b m c, val_main_v46 (F := Ideal) x0 x1 (ix3 b m c) = layerR (adj thr (feat x0 b)) cnt eps (feat x0 b) (wmat x1) m c := fun b m c =>
    r_v46 x0 x1 (fun b => proj (diffuseR (adj thr (feat x0 b)) (feat x0 b)) (wmat x1)) (r_v27 x0 x1 (feat x0) (fun _ _ _ => rfl)) b m c
  exact r_v68 x0 x1 x2 (fun b => proj (diffuseR (adj thr (feat x0 b)) (layerR (adj thr (feat x0 b)) cnt eps (feat x0 b) (wmat x1))) (wmat x2))
    (r_v49 x0 x1 x2 (fun b => layerR (adj thr (feat x0 b)) cnt eps (feat x0 b) (wmat x1)) h1) b n f

end Cert.ReferenceIdeal.Entry

end
-- ==== Proof.Consts.lean ====
/-
  The three float literals both programs spell, as extended reals: the row length `64` is the real `64`, and the
  variance's epsilon (the float nearest `1e-5`) is a positive real. Only their signs are needed: the quotient by a
  positive count of a non-negative sum is non-negative, and a non-negative variance plus a positive epsilon is positive.
-/
import Idealize.ShloMosaic.PureOps.Ideal
import Idealize.ShloMosaic.PureOps.Ideal.Laws

noncomputable section

namespace Cert.Consts

open Idealize.ShloMosaic

/-- The row length. -/
theorem cnt_pos : (0 : EReal) < Ideal.ofBits .f32 0x42800000#32 := by
  have h : Ideal.ofBits .f32 0x42800000#32 = ((64 : ℝ) : EReal) := by
    simp [Ideal.ofBits, Ideal.ieee, -EReal.coe_mul]; norm_num
  rw [h]
  exact_mod_cast (by norm_num : (0 : ℝ) < 64)

/-- The epsilon added to the variance. -/
theorem eps_pos : (0 : EReal) < Ideal.ofBits .f32 0x3727C5AC#32 := by
  have h : ∃ r : ℝ, 0 < r ∧ Ideal.ofBits .f32 0x3727C5AC#32 = (r : EReal) := by
    refine ⟨_, ?_, by simp [Ideal.ofBits, Ideal.ieee, -EReal.coe_mul]; rfl⟩
    positivity
  obtain ⟨r, hr, e⟩ := h
  rw [e]
  exact_mod_cast hr

end Cert.Consts

end
-- ==== Proof.Bridge.lean ====
/-
  The two programs compute one array.

  The kernel's output array holds, at entry `(b, n, f)`, two layers in the scale–sum–scale arrangement over batch `b`'s
  node features; the reference's result holds two layers in the normalised-matrix arrangement over the same features
  and weights. `Cert.Diffusion.net_eq` joins the arrangements; the features are the same reshaped and transposed input on
  both sides.
-/
import proofs.«162762_j24618752540869_2_alg».proof.Proof.KernelWhole
import proofs.«162762_j24618752540869_2_alg».proof.Proof.RefEntry
import proofs.«162762_j24618752540869_2_alg».proof.Proof.Consts

noncomputable section

namespace Cert.Bridge

open Idealize.ShloMosaic Idealize.ShloMosaic.ValueIdx Cert.Diffusion
open Cert.KernelIdeal Cert.KernelIdeal.Gen

/-- The reference's result is the kernel's output array, as functions of the three argument arrays. -/
theorem result_eq (x0 : Cert.ReferenceIdeal.S4x64x64x64.Idx → EReal) (x1 x2 : Cert.ReferenceIdeal.S1x64x64.Idx → EReal) :
    Cert.ReferenceIdeal.ReadP.val_main_v68 (F := Ideal) x0 x1 x2
      = Cert.KernelIdeal.Whole.outArray
          (transpose S4x4096x64 [0, 2, 1] (shapeCast S4x64x4096 x0 shapeCasts_S4x64x64x64_S4x64x4096)
            transposes_S4x64x4096_S4x4096x64_0_2_1) x1 x2 := by
  funext i
  obtain ⟨b, n, f, rfl⟩ : ∃ (b : Fin 4) (n : Fin 4096) (f : Fin 64), i = ix3 b n f := ⟨i 0, i 1, i 2, eq_ix3 i⟩
  rw [Cert.ReferenceIdeal.Entry.result_apply]
  show _ = Cert.KernelIdeal.Whole.outEntry _ x1 x2 b n f
  unfold Cert.KernelIdeal.Whole.outEntry
  rw [net_eq _ Cert.Consts.cnt_pos Cert.Consts.eps_pos]
  rfl

end Cert.Bridge

end
-- ==== Proof.lean ====
/-
  A graph-diffusion network over pixel nodes: the kernel against its reference, on the extended reals.

  Each batch entry's 4096 pixels are nodes with 64 features. The 0/1 adjacency `A` joins two nodes whose cosine
  similarity exceeds a threshold; with `D` the diagonal of `A`'s row sums, each of two layers sends features `v` to
  `relu (instanceNorm ((D^{-1/2} A D^{-1/2} v) W))`. The reference forms the normalised matrix and multiplies; the kernel
  never forms it: per batch entry it sweeps `A` in eight tiles of 512 columns, once for the row sums and once per layer
  for `A (D^{-1/2} v)`, scales by `D^{-1/2}`, and normalises with reciprocal square roots where the reference divides by
  square roots.

  The frames of the two kernel programs are the generated ones; the reference's is its run with the result dropped. The
  kernel has no idealization step to justify. The value claim: the kernel's run leaves the output array at
  `Cert.KernelIdeal.Whole.outArray` of the arguments (`Cert.KernelIdeal.Whole.run`), the reference's result is the same
  function (`Cert.Bridge.result_eq`, over the law `Cert.Diffusion.net_eq`), and the memories agree on the arguments.
-/
import proofs.«162762_j24618752540869_2_alg».proof.Defs
import proofs.«162762_j24618752540869_2_alg».proof.Proof.Gen.Kernel
import proofs.«162762_j24618752540869_2_alg».proof.Proof.Gen.Kernel.Skeleton
import proofs.«162762_j24618752540869_2_alg».proof.Proof.Gen.Kernel.Loops
import proofs.«162762_j24618752540869_2_alg».proof.Proof.Gen.Kernel.Launch
import proofs.«162762_j24618752540869_2_alg».proof.Proof.Gen.Kernel.Points
import proofs.«162762_j24618752540869_2_alg».proof.Proof.Gen.Kernel.Frame
import proofs.«162762_j24618752540869_2_alg».proof.Proof.Gen.KernelIdeal
import proofs.«162762_j24618752540869_2_alg».proof.Proof.Gen.KernelIdeal.Skeleton
import proofs.«162762_j24618752540869_2_alg».proof.Proof.Gen.KernelIdeal.Loops
import proofs.«162762_j24618752540869_2_alg».proof.Proof.Gen.KernelIdeal.Launch
import proofs.«162762_j24618752540869_2_alg».proof.Proof.Gen.KernelIdeal.Points
import proofs.«162762_j24618752540869_2_alg».proof.Proof.Gen.KernelIdeal.Frame
import proofs.«162762_j24618752540869_2_alg».proof.Proof.Gen.ReferenceIdeal
import proofs.«162762_j24618752540869_2_alg».proof.Proof.Gen.Pre_finite_inputs
import proofs.«162762_j24618752540869_2_alg».proof.Proof.Gen.KernelIdeal.Value
import proofs.«162762_j24618752540869_2_alg».proof.Proof.RefRun
import proofs.«162762_j24618752540869_2_alg».proof.Proof.Bridge
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end with the same array: the kernel's output array is `outArray` of the arguments, the reference's
    result is the same function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v68_eq, (hagree c).1, (hagree c).2.1, (hagree c).2.2]
  exact Cert.Bridge.result_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
